-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v67_0)) (v2 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v67_0) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1 : Shape := ⟨1, ![1]⟩
abbrev S1x64 : Shape := ⟨2, ![1, 64]⟩
abbrev S1600000x128 : Shape := ⟨2, ![1600000, 128]⟩
abbrev S10000x128 : Shape := ⟨2, ![10000, 128]⟩
abbrev S10000x1 : Shape := ⟨2, ![10000, 1]⟩
abbrev S100000x64 : Shape := ⟨2, ![100000, 64]⟩

abbrev nBuf : Space → Nat
  | .hbm => 137
  | .vmem => 50
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x1, .f32⟩
  | 47 => ⟨S1x128, .f32⟩
  | 48 => ⟨S1x128, .f32⟩
  | 49 => ⟨S1x128, .f32⟩
  | 50 => ⟨S1x128, .f32⟩
  | 51 => ⟨S_, .f32⟩
  | 52 => ⟨S128x128, .f32⟩
  | 53 => ⟨S_, .i32⟩
  | 54 => ⟨S1, .i32⟩
  | 55 => ⟨S128x128, .f32⟩
  | 56 => ⟨S_, .f32⟩
  | 57 => ⟨S1x128, .f32⟩
  | 58 => ⟨S1x64, .f32⟩
  | 59 => ⟨S_, .i32⟩
  | 60 => ⟨S1, .i32⟩
  | 61 => ⟨S1x128, .f32⟩
  | 62 => ⟨S100000x1, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000x128, .f32⟩
  | 8 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S1x128, .f32⟩
  | .local _ .vmem, ⟨6, _⟩ => ⟨S10000x1, .f32⟩
  | .local _ .vmem, ⟨7, _⟩ => ⟨S10000x1, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x1, .f32⟩
  | .local _ .vmem, ⟨13, _⟩ => ⟨S10000x1, .f32⟩
  | .local _ .vmem, ⟨14, _⟩ => ⟨S128x128, .f32⟩
  | .local _ .vmem, ⟨15, _⟩ => ⟨S1x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S10000x1, .f32⟩
  | .local _ .vmem, ⟨24, _⟩ => ⟨S128x128, .f32⟩
  | .local _ .vmem, ⟨25, _⟩ => ⟨S1x128, .f32⟩
  | .local _ .vmem, ⟨26, _⟩ => ⟨S10000x1, .f32⟩
  | .local _ .vmem, ⟨27, _⟩ => ⟨S10000x1, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x1, .f32⟩
  | .local _ .vmem, ⟨35, _⟩ => ⟨S10000x1, .f32⟩
  | .local _ .vmem, ⟨36, _⟩ => ⟨S128x128, .f32⟩
  | .local _ .vmem, ⟨37, _⟩ => ⟨S1x128, .f32⟩
  | .local _ .vmem, ⟨38, _⟩ => ⟨S10000x1, .f32⟩
  | .local _ .vmem, ⟨39, _⟩ => ⟨S10000x1, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x1, .f32⟩
  | .local _ .vmem, ⟨45, _⟩ => ⟨S10000x1, .f32⟩
  | .local _ .vmem, ⟨46, _⟩ => ⟨S128x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_8 : Ref sig .tc := ⟨.hbm, 51, rfl⟩
abbrev main_v25 : Ref sig .tc := ⟨.hbm, 52, rfl⟩
abbrev main_c : Ref sig .tc := ⟨.hbm, 53, rfl⟩
abbrev main_v26 : Ref sig .tc := ⟨.hbm, 54, rfl⟩
abbrev main_v27 : Ref sig .tc := ⟨.hbm, 55, rfl⟩
abbrev main_cst_9 : Ref sig .tc := ⟨.hbm, 56, rfl⟩
abbrev main_v28 : Ref sig .tc := ⟨.hbm, 57, rfl⟩
abbrev main_v29 : Ref sig .tc := ⟨.hbm, 58, rfl⟩
abbrev main_c_10 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_11 : Ref sig .tc := ⟨.hbm, 65, rfl⟩
abbrev main_v35 : Ref sig .tc := ⟨.hbm, 66, rfl⟩
abbrev main_v36 : Ref sig .tc := ⟨.hbm, 67, rfl⟩
abbrev main_c_12 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_13 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_14 : Ref sig .tc := ⟨.hbm, 79, rfl⟩
abbrev main_v46 : Ref sig .tc := ⟨.hbm, 80, rfl⟩
abbrev main_v47 : Ref sig .tc := ⟨.hbm, 81, rfl⟩
abbrev main_c_15 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_16 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_17 : Ref sig .tc := ⟨.hbm, 93, rfl⟩
abbrev main_v57 : Ref sig .tc := ⟨.hbm, 94, rfl⟩
abbrev main_v58 : Ref sig .tc := ⟨.hbm, 95, rfl⟩
abbrev main_c_18 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_19 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67_0 : Ref sig .tc := ⟨.hbm, 106, rfl⟩
abbrev main_v67_1 : Ref sig .tc := ⟨.hbm, 107, rfl⟩
abbrev main_c_20 : Ref sig .tc := ⟨.hbm, 108, rfl⟩
abbrev main_v68 : Ref sig .tc := ⟨.hbm, 109, rfl⟩
abbrev main_v69 : Ref sig .tc := ⟨.hbm, 110, rfl⟩
abbrev main_c_21 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_22 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_23 : Ref sig .tc := ⟨.hbm, 122, rfl⟩
abbrev main_v79 : Ref sig .tc := ⟨.hbm, 123, rfl⟩
abbrev main_v80 : Ref sig .tc := ⟨.hbm, 124, rfl⟩
abbrev main_c_24 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_25 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem4_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S64_S1x64 : S64.ShapeCasts S1x64
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S128x128_S128x128 : S128x128.ShapeCasts S128x128
  slices_S100000x128_S100000x64_0_0 : S100000x128.Slices ![0, 0] S100000x64
  scatter_S100000_S1600000x1_S1600000_n_0_0_1_wf : ScatterDims.WF S100000 S1600000x1 S1600000 [] [0] [0] 1
  scatter_S128x128_S1_S128x64_01_n_1_0_wf : ScatterDims.WF S128x128 S1 S128x64 [0, 1] [] [1] 0
  scatter_S1x128_S1_S1x64_01_n_1_0_wf : ScatterDims.WF S1x128 S1 S1x64 [0, 1] [] [1] 0
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x1.size a ≤ S100000x1.size a
  hwx1_4 : ∀ i : grid1.Coords, EltTy.bits .f32 = 32 ∨ (Rect.block (s := S100000x1) S10000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S100000x1.size a
  hwx3_4 : ∀ i : grid3.Coords, EltTy.bits .f32 = 32 ∨ (Rect.block (s := S100000x1) S10000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S1x128_S1_S1x64_01_n_1_0 : ScatterDims S1x128 S1 S1x64 where
  updateWindowDims := [0, 1]
  insertedWindowDims := []
  scatterDimsToOperandDims := [1]
  indexVectorDim := 0
  wf := scatter_S1x128_S1_S1x64_01_n_1_0_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v44) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S10000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v55) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S10000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S10000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v67_0) S10000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v67_1) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v77) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S10000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v78) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v88) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 300
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .f32⟩
  | 98 => ⟨S100000, .f32⟩
  | 99 => ⟨S_, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S1600000, .f32⟩
  | 3 => ⟨S_, .f32⟩
  | 4 => ⟨S100000, .f32⟩
  | 5 => ⟨S1600000x1, .i32⟩
  | 6 => ⟨S100000, .f32⟩
  | 7 => ⟨S_, .f32⟩
  | 8 => ⟨S100000, .f32⟩
  | 9 => ⟨S1600000x1, .i32⟩
  | 10 => ⟨S100000, .f32⟩
  | 11 => ⟨S_, .f32⟩
  | 12 => ⟨S100000, .f32⟩
  | 13 => ⟨S100000, .i1⟩
  | 14 => ⟨S_, .f32⟩
  | 15 => ⟨S100000, .f32⟩
  | 16 => ⟨S100000, .f32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000x1, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S100000, .f32⟩
  | 71 => ⟨S100000, .i1⟩
  | 72 => ⟨S_, .f32⟩
  | 73 => ⟨S100000, .f32⟩
  | 74 => ⟨S100000, .f32⟩
  | 75 => ⟨S100000, .f32⟩
  | 76 => ⟨S_, .f32⟩
  | 77 => ⟨S_, .f32⟩
  | 78 => ⟨S100000, .f32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S100000x1, .f32⟩
  | 92 => ⟨S100000x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x1, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S1600000, .f32⟩
  | 119 => ⟨S_, .f32⟩
  | 120 => ⟨S100000, .f32⟩
  | 121 => ⟨S1600000x1, .i32⟩
  | 122 => ⟨S100000, .f32⟩
  | 123 => ⟨S_, .f32⟩
  | 124 => ⟨S100000, .f32⟩
  | 125 => ⟨S1600000x1, .i32⟩
  | 126 => ⟨S100000, .f32⟩
  | 127 => ⟨S_, .f32⟩
  | _ => ⟨S100000x128, .f32⟩

abbrev hbmTy0_2 (i : Nat) : BufTy := match i % 128 with
  | 0 => ⟨S100000, .f32⟩
  | 1 => ⟨S100000, .i1⟩
  | 2 => ⟨S_, .f32⟩
  | 3 => ⟨S100000, .f32⟩
  | 4 => ⟨S100000, .f32⟩
  | 5 => ⟨S100000, .f32⟩
  | 6 => ⟨S_, .f32⟩
  | 7 => ⟨S_, .f32⟩
  | 8 => ⟨S100000, .f32⟩
  | 9 => ⟨S100000, .f32⟩
  | 10 => ⟨S_, .f32⟩
  | 11 => ⟨S100000, .f32⟩
  | 12 => ⟨S100000, .i1⟩
  | 13 => ⟨S_, .f32⟩
  | 14 => ⟨S100000, .f32⟩
  | 15 => ⟨S100000, .f32⟩
  | 16 => ⟨S100000, .f32⟩
  | 17 => ⟨S_, .f32⟩
  | 18 => ⟨S_, .f32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S100000x1, .f32⟩
  | 38 => ⟨S100000x128, .f32⟩
  | 39 => ⟨S100000x128, .f32⟩
  | 40 => ⟨S100000x64, .f32⟩
  | 41 => ⟨S1x64, .f32⟩
  | 42 => ⟨S100000x64, .f32⟩
  | 43 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_9 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call2_cst : Ref sig .tc := ⟨.hbm, 68, rfl⟩
abbrev main_call2_v0 : Ref sig .tc := ⟨.hbm, 69, rfl⟩
abbrev main_v39 : Ref sig .tc := ⟨.hbm, 70, rfl⟩
abbrev main_cst_10 : Ref sig .tc := ⟨.hbm, 71, rfl⟩
abbrev main_v40 : Ref sig .tc := ⟨.hbm, 72, rfl⟩
abbrev main_cst_11 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_12 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_13 : Ref sig .tc := ⟨.hbm, 81, rfl⟩
abbrev main_v47 : Ref sig .tc := ⟨.hbm, 82, rfl⟩
abbrev main_v48 : Ref sig .tc := ⟨.hbm, 83, rfl⟩
abbrev main_cst_14 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_15 : Ref sig .tc := ⟨.hbm, 88, rfl⟩
abbrev main_call3_v0 : Ref sig .tc := ⟨.hbm, 89, rfl⟩
abbrev main_call3_v1 : Ref sig .tc := ⟨.hbm, 90, rfl⟩
abbrev main_v52 : Ref sig .tc := ⟨.hbm, 91, rfl⟩
abbrev main_cst_16 : Ref sig .tc := ⟨.hbm, 92, rfl⟩
abbrev main_v53 : Ref sig .tc := ⟨.hbm, 93, rfl⟩
abbrev main_v54 : Ref sig .tc := ⟨.hbm, 94, rfl⟩
abbrev main_cst_17 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_18 : Ref sig .tc := ⟨.hbm, 99, rfl⟩
abbrev main_call4_v0 : Ref sig .tc := ⟨.hbm, 100, rfl⟩
abbrev main_call4_v1 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_19 : Ref sig .tc := ⟨.hbm, 106, rfl⟩
abbrev main_v62 : Ref sig .tc := ⟨.hbm, 107, rfl⟩
abbrev main_v63 : Ref sig .tc := ⟨.hbm, 108, rfl⟩
abbrev main_c_20 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_21 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_call5_cst : Ref sig .tc := ⟨.hbm, 126, rfl⟩
abbrev main_call5_v0 : Ref sig .tc := ⟨.hbm, 127, rfl⟩
abbrev main_v79 : Ref sig .tc := ⟨.hbm, 128, rfl⟩
abbrev main_cst_22 : Ref sig .tc := ⟨.hbm, 129, rfl⟩
abbrev main_v80 : Ref sig .tc := ⟨.hbm, 130, rfl⟩
abbrev main_cst_23 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_24 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_25 : Ref sig .tc := ⟨.hbm, 139, rfl⟩
abbrev main_v87 : Ref sig .tc := ⟨.hbm, 140, rfl⟩
abbrev main_v88 : Ref sig .tc := ⟨.hbm, 141, rfl⟩
abbrev main_cst_26 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_27 : Ref sig .tc := ⟨.hbm, 146, rfl⟩
abbrev main_call6_v0 : Ref sig .tc := ⟨.hbm, 147, rfl⟩
abbrev main_call6_v1 : Ref sig .tc := ⟨.hbm, 148, rfl⟩
abbrev main_v92 : Ref sig .tc := ⟨.hbm, 149, rfl⟩
abbrev main_cst_28 : Ref sig .tc := ⟨.hbm, 150, rfl⟩
abbrev main_v93 : Ref sig .tc := ⟨.hbm, 151, rfl⟩
abbrev main_v94 : Ref sig .tc := ⟨.hbm, 152, rfl⟩
abbrev main_cst_29 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_30 : Ref sig .tc := ⟨.hbm, 157, rfl⟩
abbrev main_call7_v0 : Ref sig .tc := ⟨.hbm, 158, rfl⟩
abbrev main_call7_v1 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_31 : Ref sig .tc := ⟨.hbm, 164, rfl⟩
abbrev main_v102 : Ref sig .tc := ⟨.hbm, 165, rfl⟩
abbrev main_v103 : Ref sig .tc := ⟨.hbm, 166, rfl⟩
abbrev main_c_32 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_33 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_call8_cst : Ref sig .tc := ⟨.hbm, 184, rfl⟩
abbrev main_call8_v0 : Ref sig .tc := ⟨.hbm, 185, rfl⟩
abbrev main_v119 : Ref sig .tc := ⟨.hbm, 186, rfl⟩
abbrev main_cst_34 : Ref sig .tc := ⟨.hbm, 187, rfl⟩
abbrev main_v120 : Ref sig .tc := ⟨.hbm, 188, rfl⟩
abbrev main_cst_35 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_36 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_cst_37 : Ref sig .tc := ⟨.hbm, 197, rfl⟩
abbrev main_v127 : Ref sig .tc := ⟨.hbm, 198, rfl⟩
abbrev main_v128 : Ref sig .tc := ⟨.hbm, 199, rfl⟩
abbrev main_cst_38 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_cst_39 : Ref sig .tc := ⟨.hbm, 204, rfl⟩
abbrev main_call9_v0 : Ref sig .tc := ⟨.hbm, 205, rfl⟩
abbrev main_call9_v1 : Ref sig .tc := ⟨.hbm, 206, rfl⟩
abbrev main_v132 : Ref sig .tc := ⟨.hbm, 207, rfl⟩
abbrev main_cst_40 : Ref sig .tc := ⟨.hbm, 208, rfl⟩
abbrev main_v133 : Ref sig .tc := ⟨.hbm, 209, rfl⟩
abbrev main_v134 : Ref sig .tc := ⟨.hbm, 210, rfl⟩
abbrev main_cst_41 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_42 : Ref sig .tc := ⟨.hbm, 215, rfl⟩
abbrev main_call10_v0 : Ref sig .tc := ⟨.hbm, 216, rfl⟩
abbrev main_call10_v1 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_c_43 : Ref sig .tc := ⟨.hbm, 222, rfl⟩
abbrev main_v142 : Ref sig .tc := ⟨.hbm, 223, rfl⟩
abbrev main_v143 : Ref sig .tc := ⟨.hbm, 224, rfl⟩
abbrev main_c_44 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_cst_45 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_call11_cst : Ref sig .tc := ⟨.hbm, 242, rfl⟩
abbrev main_call11_v0 : Ref sig .tc := ⟨.hbm, 243, rfl⟩
abbrev main_v159 : Ref sig .tc := ⟨.hbm, 244, rfl⟩
abbrev main_cst_46 : Ref sig .tc := ⟨.hbm, 245, rfl⟩
abbrev main_v160 : Ref sig .tc := ⟨.hbm, 246, rfl⟩
abbrev main_cst_47 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_48 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_cst_49 : Ref sig .tc := ⟨.hbm, 255, rfl⟩
abbrev main_v167 : Ref sig .tc := ⟨.hbm, 256, rfl⟩
abbrev main_v168 : Ref sig .tc := ⟨.hbm, 257, rfl⟩
abbrev main_cst_50 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_cst_51 : Ref sig .tc := ⟨.hbm, 262, rfl⟩
abbrev main_call12_v0 : Ref sig .tc := ⟨.hbm, 263, rfl⟩
abbrev main_call12_v1 : Ref sig .tc := ⟨.hbm, 264, rfl⟩
abbrev main_v172 : Ref sig .tc := ⟨.hbm, 265, rfl⟩
abbrev main_cst_52 : Ref sig .tc := ⟨.hbm, 266, rfl⟩
abbrev main_v173 : Ref sig .tc := ⟨.hbm, 267, rfl⟩
abbrev main_v174 : Ref sig .tc := ⟨.hbm, 268, rfl⟩
abbrev main_cst_53 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_cst_54 : Ref sig .tc := ⟨.hbm, 273, rfl⟩
abbrev main_call13_v0 : Ref sig .tc := ⟨.hbm, 274, rfl⟩
abbrev main_call13_v1 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_c_55 : Ref sig .tc := ⟨.hbm, 280, rfl⟩
abbrev main_v182 : Ref sig .tc := ⟨.hbm, 281, rfl⟩
abbrev main_v183 : Ref sig .tc := ⟨.hbm, 282, rfl⟩
abbrev main_c_56 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_cst_57 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result arrays named.

  @main is fifteen segments: stretches of host operations and five tiled regions. The contents of every buffer at
  every segment boundary are a fold from the launch memory (W0, …, W15 of the generated frame module): a stretch's
  operations applied in order, a region's arrays at what its write-backs leave. Every weakly fair execution ends, nothing
  faulting, with every unscoped buffer at the last boundary's contents W15; the frame keeps of this only that the arguments
  end as launched. Here the two computed results are kept as well: the sliced last layer at W15's contents of its buffer,
  the third layer's embedding at W15's contents of its buffer.
-/
import proofs.«143446_j21388937134412_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two computed results at the last
    boundary's contents of their buffers and every argument array as launched: the launch over the fifteen segments,
    the last thread state read against the final state. -/
theorem run : θ_run defs (onTc (τ := τ) (main (F := F))) ⟨m, fun _ => 0, ρ⟩ (fun r => ∀ c : Dev nD,
      r.2.mem ((c.tc : Thread nD τ).loc main_v90) = W15 m ρ c (Proc.devRef .tc main_v90)
      ∧ r.2.mem ((c.tc : Thread nD τ).loc main_v67_0) = W15 m ρ c (Proc.devRef .tc main_v67_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v90 (by decide)),
       h c _ (mem_uc main_v67_0 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.RunValue

end
-- ==== Proof.Net.lean ====
/-
  The network both programs compute, as whole-array functions over the extended reals.

  A graph of 100000 nodes and 1600000 directed edges (src e → dst e); every node carries a row of 128 features. From the
  edge lists come two per-node numbers: so n = rsqrt(max(out-degree n, 1)) where the out-degree is positive and 0 where it
  is zero, and si n the same of the in-degree. One layer takes features H, scales row n by so n, sums for every node the
  scaled rows of the sources of its incoming edges (a gather of rows along src, summed into the rows dst names), scales
  row n of the sum by si n, multiplies by the layer's 128 × 128 weights, adds the layer's bias row to every row and
  rectifies:  layer H = max((si ⊙ A (so ⊙ H)) · W + b, 0).  The network is five layers deep; the last one has 64 output
  columns and no rectifier. Its results are the last layer's output and the third layer's.
  The pieces are named separately because the tiled program computes the dense part of a layer (scaling by si, product,
  bias, rectifier, scaling by so for the next layer) block by block inside a region and the sparse part (gather and
  accumulation) between regions, while the reference computes each layer whole.
-/
import proofs.«143446_j21388937134412_2_alg».proof.Proof.Gen.ReferenceIdeal
import Idealize.ShloMosaic.PureOps.Ideal

noncomputable section

namespace Cert.Net

open Idealize.ShloMosaic Cert.ReferenceIdeal Cert.ReferenceIdeal.Gen

/-- Features: one row of 128 numbers per node. -/
abbrev Nodes := FVec Ideal S100000x128 .f32
/-- One number per node, as a column. -/
abbrev Col := FVec Ideal S100000x1 .f32
/-- One number per node, as a vector. -/
abbrev PerNode := FVec Ideal S100000 .f32
/-- One node index per edge. -/
abbrev Edges := (⟨S1600000, .i32⟩ : BufTy).Contents (Elt Ideal)

/-- A per-node vector as a column. -/
def col (v : PerNode) : Col := broadcastInDim S100000x1 ![0] bcast_S100000_S100000x1_0 v
/-- A bias vector as a row. -/
def row (b : FVec Ideal S128 .f32) : FVec Ideal S1x128 .f32 := broadcastInDim S1x128 ![1] bcast_S128_S1x128_1 b
/-- A column repeated over the 128 lanes of every row. -/
def spreadCol (s : Col) : Nodes := broadcastInDim S100000x128 ![0, 1] bcast_S100000x1_S100000x128_0_1 s
/-- A row repeated over all nodes. -/
def spreadRow (b : FVec Ideal S1x128 .f32) : Nodes := broadcastInDim S100000x128 ![0, 1] bcast_S1x128_S100000x128_0_1 b
/-- The all-zero features. -/
def zeros : Nodes := broadcastInDim S100000x128 ![] bcast_S_S100000x128 (constant S_ .f32 0x00000000#32)

/-- Every row scaled by its node's number. -/
def scale (H : Nodes) (t : Col) : Nodes := mulf H (spreadCol t)
/-- The dense part of a layer: rows scaled by s, times the weights, plus the bias row. -/
def dense (A : Nodes) (s : Col) (W : FVec Ideal S128x128 .f32) (b : FVec Ideal S1x128 .f32) : Nodes :=
  addf (Host.dotGeneral dot_S100000x128_S128x128_S100000x128_1_0_0_1_n_n none (mulf A (spreadCol s)) W) (spreadRow b)
/-- The rectifier. -/
def relu (Y : Nodes) : Nodes := maximumf Y zeros

/-- How many edges name each node: ones summed into the slots the edge list names. -/
def degree (e : Edges) : PerNode :=
  Host.scatterAdd scatter_S100000_S1600000x1_S1600000_n_0_0_1
    (broadcastInDim S100000 ![] bcast_S_S100000 (constant S_ .f32 0x00000000#32))
    (broadcastInDim S1600000x1 ![0] bcast_S1600000_S1600000x1_0 e)
    (broadcastInDim S1600000 ![] bcast_S_S1600000 (constant S_ .f32 0x3F800000#32))
/-- rsqrt(max(degree, 1)) where the degree is positive, 0 elsewhere. -/
def invSqrt (e : Edges) : PerNode :=
  select (cmpf .ogt (degree e) (broadcastInDim S100000 ![] bcast_S_S100000 (constant S_ .f32 0x00000000#32)))
    (Host.rsqrt (maximumf (degree e) (broadcastInDim S100000 ![] bcast_S_S100000 (constant S_ .f32 0x3F800000#32))))
    (broadcastInDim S100000 ![] bcast_S_S100000 (id (constant (F := Ideal) S_ .f32 0x00000000#32)))
/-- The source list as row indices: a negative entry counts from the end. -/
def rowIdx (src : Edges) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)
/-- The sparse part of a layer: for every node, the sum of the rows of H at the sources of its incoming edges. -/
def agg (src dst : Edges) (H : Nodes) : Nodes :=
  Host.scatterAdd scatter_S100000x128_S1600000x1_S1600000x128_1_0_0_1 zeros
    (broadcastInDim S1600000x1 ![0] bcast_S1600000_S1600000x1_0 dst)
    (Host.gather gather_S100000x128_S1600000x1_S1600000x128_1_0_n_n_0_1_1128 H (rowIdx src))

/-- What the dense part of a layer is fed: the aggregate of the rows scaled on the source side. -/
def fed (src dst : Edges) (H : Nodes) : Nodes := agg src dst (scale H (col (invSqrt src)))
/-- One rectified layer. -/
def layer (src dst : Edges) (H : Nodes) (W : FVec Ideal S128x128 .f32) (b : FVec Ideal S128 .f32) : Nodes :=
  relu (dense (fed src dst H) (col (invSqrt dst)) W (row b))
/-- The last layer: 64 output columns, no rectifier. -/
def last (src dst : Edges) (H : Nodes) (W : FVec Ideal S128x64 .f32) (b : FVec Ideal S64 .f32) : FVec Ideal S100000x64 .f32 :=
  addf (Host.dotGeneral dot_S100000x128_S128x64_S100000x64_1_0_0_1_n_n none
      (mulf (fed src dst H) (spreadCol (col (invSqrt dst)))) W)
    (broadcastInDim S100000x64 ![0, 1] bcast_S1x64_S100000x64_0_1 (broadcastInDim S1x64 ![1] bcast_S64_S1x64_1 b))

/-- The third layer's output. -/
def embedding (x : Nodes) (src dst : Edges) (W1 : FVec Ideal S128x128 .f32) (b1 : FVec Ideal S128 .f32)
    (W2 : FVec Ideal S128x128 .f32) (b2 : FVec Ideal S128 .f32) (W3 : FVec Ideal S128x128 .f32) (b3 : FVec Ideal S128 .f32) : Nodes :=
  layer src dst (layer src dst (layer src dst x W1 b1) W2 b2) W3 b3
/-- The network's output. -/
def output (x : Nodes) (src dst : Edges) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (W5 : FVec Ideal S128x64 .f32) (b5 : FVec Ideal S64 .f32) :
    FVec Ideal S100000x64 .f32 :=
  last src dst (layer src dst (embedding x src dst W1 b1 W2 b2 W3 b3) W4 b4) W5 b5

end Cert.Net

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.KernelHost.lean ====
/-
  The idealized kernel's host stretches, read as functions of the contents they start from.

  Before the first region @main computes, from the edge lists, the two degree vectors and their inverse square roots
  (once: the reference recomputes the same numbers in every layer), recasts them as columns and the four bias vectors
  as rows, pads the last layer's weights and bias with zero columns from 64 to 128 lanes, scales the input rows on the
  source side and forms the first aggregate. Between regions it forms the next aggregate from the previous region's
  rescaled output. After the last region it keeps the first 64 columns. Each statement holds for any contents the
  stretch starts from; the operations are the network's own, so each value is the network's function of the contents read.
-/
import proofs.«143446_j21388937134412_2_alg».proof.Proof.Gen.KernelIdeal.Launch
import proofs.«143446_j21388937134412_2_alg».proof.Proof.Gen.KernelIdeal
import proofs.«143446_j21388937134412_2_alg».proof.Proof.Net
import proofs.«143446_j21388937134412_2_alg».proof.Proof.LibRowOfVector
import proofs.«143446_j21388937134412_2_alg».proof.Proof.LibHostSpread
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo

/-! ## The degree numbers, for any reading of the floats

The select between rsqrt(max(degree, 1)) and 0 is an outlined function of the program, so its operations move their
values between a tensor's type and its buffer's type (the identity, by transport along an equation of types). That the
composed operations compute the plain term below is a statement about the operations' text alone: it holds for any
reading of the floats, and is proved in that generality. -/

section AnyFloats

variable {F : FTy → Type} [FloatOps F] (Wg : Valuation τ sig (Elt F))

/-- rsqrt(max(degree, 1)) where the degree is positive, 0 elsewhere, in the program's spelling. -/
def invSqrtK (e : (⟨S1600000, .i32⟩ : BufTy).Contents (Elt F)) : FVec F S100000 .f32 :=
  select (cmpf (F := F) .ogt
      (Host.scatterAdd scatter_S100000_S1600000x1_S1600000_n_0_0_1
        (broadcastInDim S100000 ![] bcast_S_S100000 (constant S_ .f32 0x00000000#32))
        (broadcastInDim S1600000x1 ![0] bcast_S1600000_S1600000x1_0 e)
        (broadcastInDim S1600000 ![] bcast_S_S1600000 (constant S_ .f32 0x3F800000#32)))
      (broadcastInDim S100000 ![] bcast_S_S100000 (constant S_ .f32 0x00000000#32)))
    (Host.rsqrt (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 e)
        (broadcastInDim S1600000 ![] bcast_S_S1600000 (constant S_ .f32 0x3F800000#32)))
      (broadcastInDim S100000 ![] bcast_S_S100000 (constant S_ .f32 0x3F800000#32))))
    (broadcastInDim S100000 ![] bcast_S_S100000 (id (constant (F := F) S_ .f32 0x00000000#32)))

/-- The contents after the four stretches that compute the degree numbers. -/
abbrev mid : Valuation τ sig (Elt F) :=
  after hostOps0_3 (after hostOps0_2 (after hostOps0_1 (after hostOps0 Wg)))

/-- The out-degree numbers, from the source list. -/
theorem mid_so : mid Wg (Proc.devRef .tc main_v12) = invSqrtK (Wg (Proc.devRef .tc main_arg1)) := by
  show after hostOps0_3 (after hostOps0_2 (after hostOps0_1 (after hostOps0 Wg))) (Proc.devRef .tc main_v12) = _
  after_results_simp
  unfold invSqrtK
  rfl

/-- The in-degree numbers, from the destination list. -/
theorem mid_si : mid Wg (Proc.devRef .tc main_v18) = invSqrtK (Wg (Proc.devRef .tc main_arg2)) := by
  show after hostOps0_3 (after hostOps0_2 (after hostOps0_1 (after hostOps0 Wg))) (Proc.devRef .tc main_v18) = _
  after_results_simp
  unfold invSqrtK
  rfl

theorem mid_arg0 : mid Wg (Proc.devRef .tc main_arg0) = Wg (Proc.devRef .tc main_arg0) := by
  show after hostOps0_3 (after hostOps0_2 (after hostOps0_1 (after hostOps0 Wg))) (Proc.devRef .tc main_arg0) = _
  after_results_simp

theorem mid_arg1 : mid Wg (Proc.devRef .tc main_arg1) = Wg (Proc.devRef .tc main_arg1) := by
  show after hostOps0_3 (after hostOps0_2 (after hostOps0_1 (after hostOps0 Wg))) (Proc.devRef .tc main_arg1) = _
  after_results_simp

theorem mid_arg2 : mid Wg (Proc.devRef .tc main_arg2) = Wg (Proc.devRef .tc main_arg2) := by
  show after hostOps0_3 (after hostOps0_2 (after hostOps0_1 (after hostOps0 Wg))) (Proc.devRef .tc main_arg2) = _
  after_results_simp

theorem mid_arg3 : mid Wg (Proc.devRef .tc main_arg3) = Wg (Proc.devRef .tc main_arg3) := by
  show after hostOps0_3 (after hostOps0_2 (after hostOps0_1 (after hostOps0 Wg))) (Proc.devRef .tc main_arg3) = _
  after_results_simp

theorem mid_arg4 : mid Wg (Proc.devRef .tc main_arg4) = Wg (Proc.devRef .tc main_arg4) := by
  show after hostOps0_3 (after hostOps0_2 (after hostOps0_1 (after hostOps0 Wg))) (Proc.devRef .tc main_arg4) = _
  after_results_simp

theorem mid_arg5 : mid Wg (Proc.devRef .tc main_arg5) = Wg (Proc.devRef .tc main_arg5) := by
  show after hostOps0_3 (after hostOps0_2 (after hostOps0_1 (after hostOps0 Wg))) (Proc.devRef .tc main_arg5) = _
  after_results_simp

theorem mid_arg6 : mid Wg (Proc.devRef .tc main_arg6) = Wg (Proc.devRef .tc main_arg6) := by
  show after hostOps0_3 (after hostOps0_2 (after hostOps0_1 (after hostOps0 Wg))) (Proc.devRef .tc main_arg6) = _
  after_results_simp

theorem mid_arg7 : mid Wg (Proc.devRef .tc main_arg7) = Wg (Proc.devRef .tc main_arg7) := by
  show after hostOps0_3 (after hostOps0_2 (after hostOps0_1 (after hostOps0 Wg))) (Proc.devRef .tc main_arg7) = _
  after_results_simp

theorem mid_arg8 : mid Wg (Proc.devRef .tc main_arg8) = Wg (Proc.devRef .tc main_arg8) := by
  show after hostOps0_3 (after hostOps0_2 (after hostOps0_1 (after hostOps0 Wg))) (Proc.devRef .tc main_arg8) = _
  after_results_simp

theorem mid_arg9 : mid Wg (Proc.devRef .tc main_arg9) = Wg (Proc.devRef .tc main_arg9) := by
  show after hostOps0_3 (after hostOps0_2 (after hostOps0_1 (after hostOps0 Wg))) (Proc.devRef .tc main_arg9) = _
  after_results_simp

theorem mid_arg10 : mid Wg (Proc.devRef .tc main_arg10) = Wg (Proc.devRef .tc main_arg10) := by
  show after hostOps0_3 (after hostOps0_2 (after hostOps0_1 (after hostOps0 Wg))) (Proc.devRef .tc main_arg10) = _
  after_results_simp

theorem mid_arg11 : mid Wg (Proc.devRef .tc main_arg11) = Wg (Proc.devRef .tc main_arg11) := by
  show after hostOps0_3 (after hostOps0_2 (after hostOps0_1 (after hostOps0 Wg))) (Proc.devRef .tc main_arg11) = _
  after_results_simp

theorem mid_arg12 : mid Wg (Proc.devRef .tc main_arg12) = Wg (Proc.devRef .tc main_arg12) := by
  show after hostOps0_3 (after hostOps0_2 (after hostOps0_1 (after hostOps0 Wg))) (Proc.devRef .tc main_arg12) = _
  after_results_simp

end AnyFloats

variable (Wv : Valuation τ sig (Elt Ideal))

/-- At the extended reals the program's spelling of the degree numbers is the network's. -/
theorem invSqrtK_eq (e : (⟨S1600000, .i32⟩ : BufTy).Contents (Elt Ideal)) : invSqrtK (F := Ideal) e = Cert.Net.invSqrt e := rfl

/-- The last layer's weights with zero columns appended: 128 × 64 written into the left of 128 × 128 zeros. -/
def padW (W : FVec Ideal S128x64 .f32) : FVec Ideal S128x128 .f32 :=
  Host.scatter scatter_S128x128_S1_S128x64_01_n_1_0 (fun _ b => b)
    (broadcastInDim S128x128 ![] bcast_S_S128x128 (constant S_ .f32 0x00000000#32))
    (broadcastInDim S1 ![] bcast_S_S1 (constantI S_ 32 0#32)) W
/-- The last layer's bias with zero entries appended, as a row of 128. -/
def padB (b : FVec Ideal S64 .f32) : FVec Ideal S1x128 .f32 :=
  Host.scatter scatter_S1x128_S1_S1x64_01_n_1_0 (fun _ b => b)
    (broadcastInDim S1x128 ![] bcast_S_S1x128 (constant S_ .f32 0x00000000#32))
    (broadcastInDim S1 ![] bcast_S_S1 (constantI S_ 32 0#32)) (shapeCast S1x64 b shapeCasts_S64_S1x64)

/-! ## The stretch that ends at the first region: layouts, padding, and the first aggregate -/

/-- The first aggregate: the input rows scaled on the source side by the out-degree numbers found in their buffer,
    gathered and summed. -/
theorem first_fed : after hostOps0_4 Wv (Proc.devRef .tc main_v44)
    = Cert.Net.agg (Wv (Proc.devRef .tc main_arg1)) (Wv (Proc.devRef .tc main_arg2))
        (Cert.Net.scale (Wv (Proc.devRef .tc main_arg0)) (Cert.Net.col (Wv (Proc.devRef .tc main_v12)))) := by
  simp only [hostOps0_4]
  after_results_simp
  rfl

/-- The in-degree numbers as a column. -/
theorem first_si : after hostOps0_4 Wv (Proc.devRef .tc main_v20) = Cert.Net.col (Wv (Proc.devRef .tc main_v18)) := by
  refine Eq.trans ?_ (Cert.Lib.shapeCast_col_eq_spread (Wv (Proc.devRef .tc main_v18)) shapeCasts_S100000_S100000x1 bcast_S100000_S100000x1_0)
  simp only [hostOps0_4]
  after_results_simp
  rfl

/-- The out-degree numbers as a column. -/
theorem first_so : after hostOps0_4 Wv (Proc.devRef .tc main_v19) = Cert.Net.col (Wv (Proc.devRef .tc main_v12)) := by
  refine Eq.trans ?_ (Cert.Lib.shapeCast_col_eq_spread (Wv (Proc.devRef .tc main_v12)) shapeCasts_S100000_S100000x1 bcast_S100000_S100000x1_0)
  simp only [hostOps0_4]
  after_results_simp
  rfl

/-- A bias vector as a row. -/
theorem first_row4 : after hostOps0_4 Wv (Proc.devRef .tc main_v21) = Cert.Net.row (Wv (Proc.devRef .tc main_arg4)) := by
  refine Eq.trans ?_ (Cert.Lib.shapeCast_row_eq_broadcastInDim (Wv (Proc.devRef .tc main_arg4)) shapeCasts_S128_S1x128 Cert.ReferenceIdeal.Gen.bcast_S128_S1x128_1)
  simp only [hostOps0_4]
  after_results_simp
  rfl

/-- A bias vector as a row. -/
theorem first_row6 : after hostOps0_4 Wv (Proc.devRef .tc main_v22) = Cert.Net.row (Wv (Proc.devRef .tc main_arg6)) := by
  refine Eq.trans ?_ (Cert.Lib.shapeCast_row_eq_broadcastInDim (Wv (Proc.devRef .tc main_arg6)) shapeCasts_S128_S1x128 Cert.ReferenceIdeal.Gen.bcast_S128_S1x128_1)
  simp only [hostOps0_4]
  after_results_simp
  rfl

/-- A bias vector as a row. -/
theorem first_row8 : after hostOps0_4 Wv (Proc.devRef .tc main_v23) = Cert.Net.row (Wv (Proc.devRef .tc main_arg8)) := by
  refine Eq.trans ?_ (Cert.Lib.shapeCast_row_eq_broadcastInDim (Wv (Proc.devRef .tc main_arg8)) shapeCasts_S128_S1x128 Cert.ReferenceIdeal.Gen.bcast_S128_S1x128_1)
  simp only [hostOps0_4]
  after_results_simp
  rfl

/-- A bias vector as a row. -/
theorem first_row10 : after hostOps0_4 Wv (Proc.devRef .tc main_v24) = Cert.Net.row (Wv (Proc.devRef .tc main_arg10)) := by
  refine Eq.trans ?_ (Cert.Lib.shapeCast_row_eq_broadcastInDim (Wv (Proc.devRef .tc main_arg10)) shapeCasts_S128_S1x128 Cert.ReferenceIdeal.Gen.bcast_S128_S1x128_1)
  simp only [hostOps0_4]
  after_results_simp
  rfl

/-- The padded weights of the last layer. -/
theorem first_padW : after hostOps0_4 Wv (Proc.devRef .tc main_v27) = padW (Wv (Proc.devRef .tc main_arg11)) := by
  simp only [hostOps0_4]
  after_results_simp
  rfl

/-- The padded bias row of the last layer. -/
theorem first_padB : after hostOps0_4 Wv (Proc.devRef .tc main_v31) = padB (Wv (Proc.devRef .tc main_arg12)) := by
  simp only [hostOps0_4]
  after_results_simp
  rfl

/-- An argument no operation writes keeps its contents. -/
theorem first_arg1 : after hostOps0_4 Wv (Proc.devRef .tc main_arg1) = Wv (Proc.devRef .tc main_arg1) := by
  simp only [hostOps0_4]
  after_results_simp

/-- An argument no operation writes keeps its contents. -/
theorem first_arg2 : after hostOps0_4 Wv (Proc.devRef .tc main_arg2) = Wv (Proc.devRef .tc main_arg2) := by
  simp only [hostOps0_4]
  after_results_simp

/-- An argument no operation writes keeps its contents. -/
theorem first_arg3 : after hostOps0_4 Wv (Proc.devRef .tc main_arg3) = Wv (Proc.devRef .tc main_arg3) := by
  simp only [hostOps0_4]
  after_results_simp

/-- An argument no operation writes keeps its contents. -/
theorem first_arg5 : after hostOps0_4 Wv (Proc.devRef .tc main_arg5) = Wv (Proc.devRef .tc main_arg5) := by
  simp only [hostOps0_4]
  after_results_simp

/-- An argument no operation writes keeps its contents. -/
theorem first_arg7 : after hostOps0_4 Wv (Proc.devRef .tc main_arg7) = Wv (Proc.devRef .tc main_arg7) := by
  simp only [hostOps0_4]
  after_results_simp

/-- An argument no operation writes keeps its contents. -/
theorem first_arg9 : after hostOps0_4 Wv (Proc.devRef .tc main_arg9) = Wv (Proc.devRef .tc main_arg9) := by
  simp only [hostOps0_4]
  after_results_simp

/-! ## The stretch before region 1: the next layer's aggregate -/

/-- The references the stretch writes. -/
abbrev written1 : List (Ref sig .tc) := [main_c_14, main_v46, main_v47, main_c_15, main_v48, main_v49, main_v50, main_v51, main_v52, main_cst_16, main_v53, main_v54, main_v55]

theorem writes1 : (hostOps1 : List (HloOp τ sig (Elt Ideal))).Forall
    fun op => op.writes ⊆ (written1.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩

/-- A reference the stretch does not write keeps its contents. -/
theorem keep1 (r : Ref sig .tc) (h : r ∉ written1) :
    after hostOps1 Wv (Proc.devRef .tc r) = Wv (Proc.devRef .tc r) :=
  after_of_writes_sub hostOps1 Wv writes1 h

/-- The stretch gathers the rows of the previous region's rescaled output along the source list and sums them into the
    rows the destination list names: the network's aggregate of that array. -/
theorem agg1 : after hostOps1 Wv (Proc.devRef .tc main_v55)
    = Cert.Net.agg (Wv (Proc.devRef .tc main_arg1)) (Wv (Proc.devRef .tc main_arg2)) (Wv (Proc.devRef .tc main_v45)) := by
  simp only [hostOps1]
  after_results_simp
  rfl

/-! ## The stretch before region 2: the next layer's aggregate -/

/-- The references the stretch writes. -/
abbrev written2 : List (Ref sig .tc) := [main_c_17, main_v57, main_v58, main_c_18, main_v59, main_v60, main_v61, main_v62, main_v63, main_cst_19, main_v64, main_v65, main_v66]

theorem writes2 : (hostOps2 : List (HloOp τ sig (Elt Ideal))).Forall
    fun op => op.writes ⊆ (written2.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩

/-- A reference the stretch does not write keeps its contents. -/
theorem keep2 (r : Ref sig .tc) (h : r ∉ written2) :
    after hostOps2 Wv (Proc.devRef .tc r) = Wv (Proc.devRef .tc r) :=
  after_of_writes_sub hostOps2 Wv writes2 h

/-- The stretch gathers the rows of the previous region's rescaled output along the source list and sums them into the
    rows the destination list names: the network's aggregate of that array. -/
theorem agg2 : after hostOps2 Wv (Proc.devRef .tc main_v66)
    = Cert.Net.agg (Wv (Proc.devRef .tc main_arg1)) (Wv (Proc.devRef .tc main_arg2)) (Wv (Proc.devRef .tc main_v56)) := by
  simp only [hostOps2]
  after_results_simp
  rfl

/-! ## The stretch before region 3: the next layer's aggregate -/

/-- The references the stretch writes. -/
abbrev written3 : List (Ref sig .tc) := [main_c_20, main_v68, main_v69, main_c_21, main_v70, main_v71, main_v72, main_v73, main_v74, main_cst_22, main_v75, main_v76, main_v77]

theorem writes3 : (hostOps3 : List (HloOp τ sig (Elt Ideal))).Forall
    fun op => op.writes ⊆ (written3.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩

/-- A reference the stretch does not write keeps its contents. -/
theorem keep3 (r : Ref sig .tc) (h : r ∉ written3) :
    after hostOps3 Wv (Proc.devRef .tc r) = Wv (Proc.devRef .tc r) :=
  after_of_writes_sub hostOps3 Wv writes3 h

/-- The stretch gathers the rows of the previous region's rescaled output along the source list and sums them into the
    rows the destination list names: the network's aggregate of that array. -/
theorem agg3 : after hostOps3 Wv (Proc.devRef .tc main_v77)
    = Cert.Net.agg (Wv (Proc.devRef .tc main_arg1)) (Wv (Proc.devRef .tc main_arg2)) (Wv (Proc.devRef .tc main_v67_1)) := by
  simp only [hostOps3]
  after_results_simp
  rfl

/-! ## The stretch before region 4: the next layer's aggregate -/

/-- The references the stretch writes. -/
abbrev written4 : List (Ref sig .tc) := [main_c_23, main_v79, main_v80, main_c_24, main_v81, main_v82, main_v83, main_v84, main_v85, main_cst_25, main_v86, main_v87, main_v88]

theorem writes4 : (hostOps4 : List (HloOp τ sig (Elt Ideal))).Forall
    fun op => op.writes ⊆ (written4.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩

/-- A reference the stretch does not write keeps its contents. -/
theorem keep4 (r : Ref sig .tc) (h : r ∉ written4) :
    after hostOps4 Wv (Proc.devRef .tc r) = Wv (Proc.devRef .tc r) :=
  after_of_writes_sub hostOps4 Wv writes4 h

/-- The stretch gathers the rows of the previous region's rescaled output along the source list and sums them into the
    rows the destination list names: the network's aggregate of that array. -/
theorem agg4 : after hostOps4 Wv (Proc.devRef .tc main_v88)
    = Cert.Net.agg (Wv (Proc.devRef .tc main_arg1)) (Wv (Proc.devRef .tc main_arg2)) (Wv (Proc.devRef .tc main_v78)) := by
  simp only [hostOps4]
  after_results_simp
  rfl

/-! ## The stretch after the last region -/

/-- The result keeps the first 64 columns of the last region's output. -/
theorem sliced : after hostOps5 Wv (Proc.devRef .tc main_v90)
    = extractStridedSlice S100000x64 ![0, 0] (Wv (Proc.devRef .tc main_v89)) slices_S100000x128_S100000x64_0_0 := by
  simp only [hostOps5]
  after_results_simp

/-- The third layer's output is not touched by the slice. -/
theorem sliced_keep : after hostOps5 Wv (Proc.devRef .tc main_v67_0) = Wv (Proc.devRef .tc main_v67_0) := by
  simp only [hostOps5]
  after_results_simp

end Cert.KernelIdeal.Host

end
-- ==== Proof.LibWindowSet.lean ====
/-
  An overwriting scatter read at one entry.

  The scatter folds over the update entries in row-major order; each update entry that lands inside the operand replaces
  the operand's entry at its landing position by the update's entry. If exactly one update entry j0 lands on position i,
  the result at i is the update's entry at j0: every other step leaves position i alone, and the one step that writes it
  writes that entry.

  The special case used afterwards: an [N, G] array of updates written as one whole window into an [N, F] array, the window
  placed by a single start index, equal to 0, on the column axis. Update entry (r, c) lands on position (r, c) and on no
  other, so the result at (r, c), for c below G, is the update's entry (r, c).
-/
import Idealize.ShloMosaic.PureOps.Ideal
import Idealize.ShloMosaic.Lib.ValueIdx

noncomputable section

namespace Cert.Lib

open Idealize.ShloMosaic Idealize.ShloMosaic.ValueIdx

/-- A left fold of steps over a list of update numbers, read at position i, when each step writes position i exactly if
    its update entry lands there and j0 is the only update entry that does: the value is the update's entry at j0 if the
    number of j0 is in the list, and the starting value otherwise. -/
private theorem foldl_apply_of_unique {α : Type} {s si u : Shape} {w : Nat} (d : ScatterDims s si u)
    (idx : IVec si w) (upd : u.Idx → α) (j0 : u.Idx) (i : s.Idx)
    (h0 : d.resultIdx? j0 idx = some i) (huniq : ∀ j, d.resultIdx? j idx = some i → j = j0)
    (step : (s.Idx → α) → Fin u.numel → s.Idx → α)
    (hstep : ∀ r n, step r n i
      = if d.resultIdx? (u.rowMajor.symm n) idx = some i then upd (u.rowMajor.symm n) else r i)
    (L : List (Fin u.numel)) (x : s.Idx → α) :
    L.foldl step x i = if u.rowMajor j0 ∈ L then upd j0 else x i := by
  induction L generalizing x with
  | nil => simp
  | cons n L ih =>
    rw [List.foldl_cons, ih, hstep]
    by_cases hn : d.resultIdx? (u.rowMajor.symm n) idx = some i
    · have hj : u.rowMajor.symm n = j0 := huniq _ hn
      have hn' : u.rowMajor j0 = n := by rw [← hj, Equiv.apply_symm_apply]
      have hmem : u.rowMajor j0 ∈ n :: L := by rw [hn']; exact List.mem_cons_self
      rw [if_pos hn, hj, if_pos hmem]
      split <;> rfl
    · have hne : u.rowMajor j0 ≠ n := by
        intro h
        apply hn
        rw [← h, Equiv.symm_apply_apply]
        exact h0
      rw [if_neg hn]
      by_cases hm : u.rowMajor j0 ∈ L
      · rw [if_pos hm, if_pos (List.mem_cons_of_mem _ hm)]
      · rw [if_neg hm, if_neg]
        intro h
        rcases List.mem_cons.1 h with h | h
        · exact hne h
        · exact hm h

/-- The overwriting scatter at a position that exactly one update entry lands on is that update entry. -/
theorem scatter_set_apply_of_unique {α : Type} {s si u : Shape} {w : Nat} (d : ScatterDims s si u) (x : s.Idx → α)
    (idx : IVec si w) (upd : u.Idx → α) (j0 : u.Idx) (i : s.Idx) (h0 : d.resultIdx? j0 idx = some i)
    (huniq : ∀ j, d.resultIdx? j idx = some i → j = j0) :
    Host.scatter d (fun _ b => b) x idx upd i = upd j0 := by
  unfold Host.scatter
  rw [foldl_apply_of_unique d idx upd j0 i h0 huniq _ _ (List.finRange u.numel) x, if_pos (List.mem_finRange _)]
  intro r n
  cases h : d.resultIdx? (u.rowMajor.symm n) idx with
  | none => simp
  | some i' =>
    by_cases hi : i = i'
    · subst hi; simp
    · have hi' : ¬ i' = i := fun e => hi e.symm
      simp [hi, hi']

/-- The one index of an array of one entry. -/
private theorem idx1_eq (q : (⟨1, ![1]⟩ : Shape).Idx) : q = ix1 (0 : Fin 1) :=
  (eq_ix1 q).trans (congrArg ix1 (Subsingleton.elim (α := Fin 1) (q 0) 0))

/-- With one start index, equal to 0, naming the column axis, every update entry's window starts at 0 on both axes. -/
private theorem windowSet_start {N F G w : Nat} (d : ScatterDims ⟨2, ![N, F]⟩ ⟨1, ![1]⟩ ⟨2, ![N, G]⟩)
    (h3 : d.scatterDimsToOperandDims = [1]) (h4 : d.indexVectorDim = 0)
    (idx : IVec ⟨1, ![1]⟩ w) (hk : (idx (ix1 (0 : Fin 1))).toInt = 0)
    (j : (⟨2, ![N, G]⟩ : Shape).Idx) : ∀ a : Fin 2, d.start j idx a = 0 := by
  obtain ⟨uwd, iwd, sdo, ivd, wf⟩ := d
  simp only at h3 h4
  subst h3 h4
  rw [Fin.forall_fin_two]
  constructor
  · unfold ScatterDims.start
    exact dif_neg (by show (0 : Fin 2) ∉ [(1 : Fin 2)]; decide)
  · unfold ScatterDims.start
    rw [dif_pos (by show (1 : Fin 2) ∈ [(1 : Fin 2)]; decide)]
    exact (congrArg (fun q => (idx q).toInt) (idx1_eq _)).trans hk

/-- With both update axes window axes and no inserted axis, an update entry's window coordinate on an axis is its own
    coordinate on that axis. -/
private theorem windowSet_window {N F G : Nat} (d : ScatterDims ⟨2, ![N, F]⟩ ⟨1, ![1]⟩ ⟨2, ![N, G]⟩)
    (h1 : d.updateWindowDims = [0, 1]) (h2 : d.insertedWindowDims = [])
    (j : (⟨2, ![N, G]⟩ : Shape).Idx) : ∀ a : Fin 2, d.window j a = (j a).val := by
  obtain ⟨uwd, iwd, sdo, ivd, wf⟩ := d
  simp only at h1 h2
  subst h1 h2
  rw [Fin.forall_fin_two]
  constructor
  · unfold ScatterDims.window
    rw [dif_pos (by show (0 : Fin 2) ∈ (List.finRange 2).filter (· ∉ ([] : List (Fin 2))); decide)]
    rfl
  · unfold ScatterDims.window
    rw [dif_pos (by show (1 : Fin 2) ∈ (List.finRange 2).filter (· ∉ ([] : List (Fin 2))); decide)]
    rfl

/-- Under the same description, an update entry that lands inside the operand lands at its own coordinates. -/
private theorem windowSet_lands {N F G w : Nat} (d : ScatterDims ⟨2, ![N, F]⟩ ⟨1, ![1]⟩ ⟨2, ![N, G]⟩)
    (h1 : d.updateWindowDims = [0, 1]) (h2 : d.insertedWindowDims = [])
    (h3 : d.scatterDimsToOperandDims = [1]) (h4 : d.indexVectorDim = 0)
    (idx : IVec ⟨1, ![1]⟩ w) (hk : (idx (ix1 (0 : Fin 1))).toInt = 0)
    (j : (⟨2, ![N, G]⟩ : Shape).Idx) (i : (⟨2, ![N, F]⟩ : Shape).Idx)
    (h : d.resultIdx? j idx = some i) : ∀ a : Fin 2, (i a).val = (j a).val := by
  intro a
  unfold ScatterDims.resultIdx? at h
  split at h
  · have h' := Option.some.inj h
    subst h'
    show (d.start j idx a + (d.window j a : Int)).toNat = (j a).val
    rw [windowSet_start d h3 h4 idx hk j a, windowSet_window d h1 h2 j a]
    omega
  · cases h

/-- One whole [N, G] window of updates written into an [N, F] array at column 0 (a single start index, equal to 0, on the
    column axis): the result at row r and column c, for c below G, is the update's entry at row r and column c. -/
theorem windowSet_apply {N F G w : Nat} {α : Type} (d : ScatterDims ⟨2, ![N, F]⟩ ⟨1, ![1]⟩ ⟨2, ![N, G]⟩)
    (h1 : d.updateWindowDims = [0, 1]) (h2 : d.insertedWindowDims = []) (h3 : d.scatterDimsToOperandDims = [1])
    (h4 : d.indexVectorDim = 0) (x : (⟨2, ![N, F]⟩ : Shape).Idx → α) (idx : IVec ⟨1, ![1]⟩ w)
    (hk : (idx (ix1 (0 : Fin 1))).toInt = 0) (upd : (⟨2, ![N, G]⟩ : Shape).Idx → α) (r : Fin N) (c : Fin G)
    (c' : Fin F) (hc : c'.val = c.val) :
    Host.scatter d (fun _ b => b) x idx upd (ix2 r c') = upd (ix2 r c) := by
  have hs := windowSet_start d h3 h4 idx hk (ix2 r c)
  have hw := windowSet_window d h1 h2 (ix2 r c)
  apply scatter_set_apply_of_unique d x idx upd (ix2 r c) (ix2 r c')
  · unfold ScatterDims.resultIdx?
    have hall : ∀ a, 0 ≤ d.start (ix2 r c) idx a + d.window (ix2 r c) a
        ∧ d.start (ix2 r c) idx a + d.window (ix2 r c) a < (⟨2, ![N, F]⟩ : Shape).size a := by
      intro a
      rw [hs a, hw a]
      revert a
      rw [Fin.forall_fin_two]
      constructor
      · show 0 ≤ (0 : Int) + (r.val : Int) ∧ (0 : Int) + (r.val : Int) < (N : Int)
        have := r.isLt
        omega
      · show 0 ≤ (0 : Int) + (c.val : Int) ∧ (0 : Int) + (c.val : Int) < (F : Int)
        have := c'.isLt
        omega
    rw [dif_pos hall]
    refine congrArg some (funext fun a => Fin.ext ?_)
    show (d.start (ix2 r c) idx a + (d.window (ix2 r c) a : Int)).toNat = ((ix2 r c') a).val
    rw [hs a, hw a]
    revert a
    rw [Fin.forall_fin_two]
    constructor
    · show ((0 : Int) + (r.val : Int)).toNat = r.val
      omega
    · show ((0 : Int) + (c.val : Int)).toNat = c'.val
      omega
  · intro j hj
    have h := windowSet_lands d h1 h2 h3 h4 idx hk j _ hj
    have e0 : (j 0 : Fin N) = r := Fin.ext (h 0).symm
    have e1 : (j 1 : Fin G) = c := Fin.ext ((h 1).symm.trans hc)
    exact (eq_ix2 j).trans (congrArg₂ ix2 e0 e1)

end Cert.Lib
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KernelPad.lean ====
/-
  The padded last layer, sliced back.

  The last layer has 64 output columns. The tiled program pads its weights and its bias row with zero columns up to 128,
  computes the dense part on 128 lanes and keeps the first 64 columns of the result. Column q < 64 of the padded result at
  row r is the sum over c of (A ⊙ s) (r, c) times the padded weights' entry (c, q), which is the weights' entry (c, q),
  plus the padded bias row's entry q, which is the bias's entry q: the network's last layer at (r, q). The zero columns
  are never read, and no sum is reordered.
-/
import proofs.«143446_j21388937134412_2_alg».proof.Proof.KernelHost
import proofs.«143446_j21388937134412_2_alg».proof.Proof.LibWindowSet
import proofs.«143446_j21388937134412_2_alg».proof.Proof.LibPlainMatmul
import Idealize.ShloMosaic.Lib.Pipeline.Value
import Idealize.ShloMosaic.Lib.ValueIdx

set_option maxRecDepth 16384

noncomputable section

namespace Cert.KernelIdeal.Host

open Cert.KernelIdeal Cert.KernelIdeal.Gen Idealize.ShloMosaic Idealize.ShloMosaic.ValueIdx

/-- The padded weights read inside the first 64 columns are the weights. -/
theorem padW_apply (W : FVec Ideal S128x64 .f32) (c : Fin 128) (q : Fin 64) (q' : Fin 128) (hq : q'.val = q.val) :
    padW W (ix2 c q') = W (ix2 c q) :=
  Cert.Lib.windowSet_apply scatter_S128x128_S1_S128x64_01_n_1_0 rfl rfl rfl rfl _ _ rfl W c q q' hq

/-- The padded bias row read inside the first 64 columns is the bias. -/
theorem padB_apply (b : FVec Ideal S64 .f32) (q : Fin 64) (q' : Fin 128) (hq : q'.val = q.val) :
    padB b (ix2 (0 : Fin 1) q') = b (ix1 q) := by
  refine (Cert.Lib.windowSet_apply scatter_S1x128_S1_S1x64_01_n_1_0 rfl rfl rfl rfl _ _ rfl
    (shapeCast S1x64 b shapeCasts_S64_S1x64) (0 : Fin 1) q q' hq).trans ?_
  refine shapeCast_apply b shapeCasts_S64_S1x64 (ix2 (0 : Fin 1) q) (ix1 q) ?_
  rw [Shape.rowMajor_val_one, Shape.rowMajor_val_two]
  show q.val = 0 * 64 + q.val
  omega

/-- The padded product, read inside the first 64 columns, is the product with the unpadded weights. -/
theorem padded_product_apply (X : Cert.Net.Nodes) (W : FVec Ideal S128x64 .f32) (r : Fin 100000) (q : Fin 64) (q' : Fin 128)
    (hq : q'.val = q.val) :
    Host.dotGeneral (DotDims.plain 100000 128 128) none X (padW W) (ix2 r q')
      = Host.dotGeneral (DotDims.plain 100000 128 64) none X W (ix2 r q) := by
  rw [StackMember.dotGeneral_plain_apply, StackMember.dotGeneral_plain_apply]
  refine Finset.sum_congr rfl fun c _ => ?_
  rw [padW_apply W c q q' hq]

/-- The padded bias row repeated over all nodes, read inside the first 64 columns, is the bias repeated over all nodes. -/
theorem padded_bias_apply (b : FVec Ideal S64 .f32) (r : Fin 100000) (q : Fin 64) (q' : Fin 128) (hq : q'.val = q.val) :
    Cert.Net.spreadRow (padB b) (ix2 r q')
      = broadcastInDim Cert.ReferenceIdeal.S100000x64 ![0, 1] Cert.ReferenceIdeal.Gen.bcast_S1x64_S100000x64_0_1
          (broadcastInDim Cert.ReferenceIdeal.S1x64 ![1] Cert.ReferenceIdeal.Gen.bcast_S64_S1x64_1 b) (ix2 r q) := by
  unfold Cert.Net.spreadRow
  rw [Cert.Lib.spread_1b_ab_apply, padB_apply b q q' hq,
    broadcastInDim_apply ![0, 1] Cert.ReferenceIdeal.Gen.bcast_S1x64_S100000x64_0_1 _ (ix2 r q) (ix2 (0 : Fin 1) q)
      (fun a => by
        match a with
        | ⟨0, _⟩ => rfl
        | ⟨1, _⟩ => show q.val = if (64 : Nat) = 1 then 0 else q.val; rw [if_neg (by decide)]),
    broadcastInDim_apply ![1] Cert.ReferenceIdeal.Gen.bcast_S64_S1x64_1 b (ix2 (0 : Fin 1) q) (ix1 q)
      (fun a => by
        match a with
        | ⟨0, _⟩ => show q.val = if (64 : Nat) = 1 then 0 else q.val; rw [if_neg (by decide)])]

/-- The first 64 columns of the dense part computed with the padded weights and bias are the network's last layer's
    product and bias. -/
theorem sliced_dense (A : Cert.Net.Nodes) (s : Cert.Net.Col) (W : FVec Ideal S128x64 .f32) (b : FVec Ideal S64 .f32) :
    extractStridedSlice S100000x64 ![0, 0] (Cert.Net.dense A s (padW W) (padB b)) slices_S100000x128_S100000x64_0_0
      = addf (Host.dotGeneral Cert.ReferenceIdeal.dot_S100000x128_S128x64_S100000x64_1_0_0_1_n_n none
            (mulf A (Cert.Net.spreadCol s)) W)
          (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 b)) := by
  funext j
  obtain ⟨r, q, rfl⟩ : ∃ (r : Fin 100000) (q : Fin 64), j = ix2 r q := ⟨j 0, j 1, eq_ix2 j⟩
  have hq : q.val < 128 := by have := q.isLt; omega
  -- the slice reads the padded result at the same row and column
  refine (extractStridedSlice_apply ![0, 0] _ slices_S100000x128_S100000x64_0_0 (ix2 r q) (ix2 r (⟨q.val, hq⟩ : Fin 128))
    (fun a => by
      match a with
      | ⟨0, _⟩ => show r.val = 0 + r.val; omega
      | ⟨1, _⟩ => show q.val = 0 + q.val; omega)).trans ?_
  unfold Cert.Net.dense
  rw [addf_apply, addf_apply]
  exact congrArg₂ (· + ·) (padded_product_apply (mulf A (Cert.Net.spreadCol s)) W r q ⟨q.val, hq⟩ rfl)
    (padded_bias_apply b r q ⟨q.val, hq⟩ rfl)

end Cert.KernelIdeal.Host

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«143446_j21388937134412_2_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibConvBlock.lean ====
/-
  A block of rows of a graph-convolution layer, over the extended reals.

  The layer is Y = (A · W_l + B) + H · W_r, where B repeats one bias row over all rows, optionally followed by the rectifier
  max(·, 0). Rows off, …, off + m - 1 of Y depend on those rows of A and H and on all of W_l, W_r and the bias row only. So a
  kernel that computes one block of m rows at a time — each product accumulated into zero, the bias row repeated over the
  block's rows — writes, block by block, the host's whole-array layer: at a block index j its value is Y read where the
  result block puts j. The same holds for the plain linear layer X · W + B. How a block sits in its array is left to index
  maps of which only the coordinates are assumed (rows shifted by `off`, columns kept). Addition is never reordered, so
  nothing is assumed finite.
-/
import proofs.«143446_j21388937134412_2_alg».proof.Proof.LibRowBlockProduct
import proofs.«143446_j21388937134412_2_alg».proof.Proof.LibHostSpread
import Idealize.ShloMosaic.Lib.ValueIdx
import Idealize.ShloMosaic.Lib.ValueLayout

noncomputable section

namespace Cert.Lib

open Idealize.ShloMosaic Idealize.ShloMosaic.ValueIdx

/-- One bias row repeated over the rows of a block, read at a block index `j`, is the row repeated over the rows of the whole
    array read where the block puts `j`: both read the row at `j`'s column. -/
theorem bias_row_block {m M n : Nat} (brow : (⟨2, ![1, n]⟩ : Shape).Idx → EReal)
    (eo : (⟨2, ![m, n]⟩ : Shape).Idx → (⟨2, ![M, n]⟩ : Shape).Idx)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    broadcastTo ⟨2, ![m, n]⟩ brow hk j = broadcastInDim ⟨2, ![M, n]⟩ ![0, 1] hh brow (eo j) := by
  obtain ⟨a, b, rfl⟩ : ∃ (a : Fin m) (b : Fin n), j = ix2 a b := ⟨j 0, j 1, eq_ix2 j⟩
  obtain ⟨a', b', hab⟩ : ∃ (a' : Fin M) (b' : Fin n), eo (ix2 a b) = ix2 a' b' :=
    ⟨eo (ix2 a b) 0, eo (ix2 a b) 1, eq_ix2 _⟩
  have hb' : b' = b := Fin.ext (by have := heo1 (ix2 a b); rw [hab] at this; exact this)
  rw [hab, broadcastTo_1b_ab_apply, spread_1b_ab_apply, hb']

/-- x · w + (the bias row over the block) on an m-row block, the product accumulated into zero, read at a block index `j`, is
    X · w + (the bias row over the array) read where the result block puts `j`. -/
theorem linear_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec x w (constant ⟨2, ![m, n]⟩ .f32 0x00000000#32))
        (broadcastTo ⟨2, ![m, n]⟩ brow hk) j
      = addf (Host.dotGeneral (DotDims.plain M k n) prec X w) (broadcastInDim ⟨2, ![M, n]⟩ ![0, 1] hh brow) (eo j) := by
  rw [addf_apply, addf_apply,
    plain_product_row_block prec x w X w ex id eo off hx (fun _ => rfl) hex0 hex1 (fun _ => rfl) (fun _ => rfl) heo0 heo1 j,
    bias_row_block brow eo heo1 hk hh j]

/-- (a · w_l + bias row) + h · w_r on an m-row block, both products accumulated into zero, read at a block index `j`, is
    (A · w_l + bias row) + H · w_r read where the result block puts `j`. -/
theorem conv_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) prec xa wl (constant ⟨2, ![m, n]⟩ .f32 0x00000000#32))
          (broadcastTo ⟨2, ![m, n]⟩ brow hk))
        (matmul (DotDims.plain m k n) prec xh wr (constant ⟨2, ![m, n]⟩ .f32 0x00000000#32)) j
      = addf (addf (Host.dotGeneral (DotDims.plain M k n) prec A wl) (broadcastInDim ⟨2, ![M, n]⟩ ![0, 1] hh brow))
          (Host.dotGeneral (DotDims.plain M k n) prec H wr) (eo j) := by
  rw [addf_apply, addf_apply (addf _ _) _ (eo j),
    linear_row_block prec xa wl brow A ea eo off hxa hea0 hea1 heo0 heo1 hk hh j,
    plain_product_row_block prec xh wr H wr eh id eo off hxh (fun _ => rfl) heh0 heh1 (fun _ => rfl) (fun _ => rfl) heo0 heo1 j]

/-- The rectified layer: max((a · w_l + bias row) + h · w_r, z) on an m-row block against a splat of the constant `z`, read at
    a block index `j`, is the host's max of the whole-array layer and its spread of `z`, read where the result block puts `j`. -/
theorem conv_relu_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) prec xa wl (constant ⟨2, ![m, n]⟩ .f32 0x00000000#32))
            (broadcastTo ⟨2, ![m, n]⟩ brow hk))
          (matmul (DotDims.plain m k n) prec xh wr (constant ⟨2, ![m, n]⟩ .f32 0x00000000#32)))
        (broadcast ⟨2, ![m, n]⟩ (Scalar.ofBits (F := Ideal) .f32 z)) j
      = maximumf (addf (addf (Host.dotGeneral (DotDims.plain M k n) prec A wl) (broadcastInDim ⟨2, ![M, n]⟩ ![0, 1] hh brow))
            (Host.dotGeneral (DotDims.plain M k n) prec H wr))
          (broadcastInDim ⟨2, ![M, n]⟩ ![] hz (constant ⟨0, ![]⟩ .f32 z)) (eo j) := by
  rw [maximumf_apply, maximumf_apply,
    conv_row_block prec xa xh wl wr brow A H ea eh eo off hxa hxh hea0 hea1 heh0 heh1 heo0 heo1 hk hh j, splat_apply]
  rfl

end Cert.Lib

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibScaledLayer.lean ====
/-
  A block of rows of a degree-normalised graph-convolution layer, over the extended reals.

  The layer is Y = max((A ⊙ s) · W + B, 0) ⊙ t: every row r of the aggregate A is first scaled by the number s r of its
  node, the scaled rows are multiplied by W, one bias row B is added to every row, the result is rectified, and every row
  is scaled again by the number t r of its node (the rectifier and the second scaling are optional). Rows
  off, …, off + m - 1 of Y depend on those rows of A, s and t and on all of W and B only. So a kernel that computes one
  block of m rows at a time — the product accumulated into zero, the columns s and t of the block spread over its lanes,
  the bias row repeated over its rows — writes, block by block, the host's whole-array layer: at a block index j its value
  is Y read where the result block puts j. How a block sits in its array is left to index maps of which only the
  coordinates are assumed (rows shifted by off, columns kept). No sum is reordered and no factor is moved across a sum, so
  nothing is assumed finite.
-/
import proofs.«143446_j21388937134412_2_alg».proof.Proof.LibConvBlock
import proofs.«143446_j21388937134412_2_alg».proof.Proof.LibColumnLayout

noncomputable section

namespace Cert.Lib

open Idealize.ShloMosaic Idealize.ShloMosaic.ValueIdx

/-- A block of a column of per-row numbers, spread over the k lanes of the block's rows, read at a block index y, is the
    whole column spread over the lanes of the array's rows read where the block puts y: both read the column at y's row. -/
theorem column_block {m M k : Nat} (s : (⟨2, ![m, 1]⟩ : Shape).Idx → EReal) (S : (⟨2, ![M, 1]⟩ : Shape).Idx → EReal)
    (es : (⟨2, ![m, 1]⟩ : Shape).Idx → (⟨2, ![M, 1]⟩ : Shape).Idx)
    (ex : (⟨2, ![m, k]⟩ : Shape).Idx → (⟨2, ![M, k]⟩ : Shape).Idx) (off : Nat)
    (hs : ∀ y, s y = S (es y))
    (hes0 : ∀ y, (es y 0).val = off + (y 0).val)
    (hex0 : ∀ y, (ex y 0).val = off + (y 0).val)
    (hk : (⟨2, ![m, 1]⟩ : Shape).Broadcasts ⟨2, ![m, k]⟩)
    (hh : (⟨2, ![M, 1]⟩ : Shape).BroadcastsInDim ⟨2, ![M, k]⟩ (![0, 1] : Fin 2 → Fin 2))
    (y : (⟨2, ![m, k]⟩ : Shape).Idx) :
    broadcastTo ⟨2, ![m, k]⟩ s hk y = broadcastInDim ⟨2, ![M, k]⟩ ![0, 1] hh S (ex y) := by
  obtain ⟨a, b, rfl⟩ : ∃ (a : Fin m) (b : Fin k), y = ix2 a b := ⟨y 0, y 1, eq_ix2 y⟩
  obtain ⟨a', b', hab⟩ : ∃ (a' : Fin M) (b' : Fin k), ex (ix2 a b) = ix2 a' b' :=
    ⟨ex (ix2 a b) 0, ex (ix2 a b) 1, eq_ix2 _⟩
  have ha' : a'.val = off + a.val := by
    have := hex0 (ix2 a b); rw [hab] at this; exact this
  rw [hab, broadcastTo_a1_ab_apply, spread_a1_ab_apply, hs]
  refine congrArg S ?_
  funext q; apply Fin.ext
  match q with
  | ⟨0, _⟩ => exact (hes0 (ix2 a (0 : Fin 1))).trans ha'.symm
  | ⟨1, _⟩ =>
    exact Nat.lt_one_iff.mp ((es (ix2 a (0 : Fin 1)) 1).isLt : (es (ix2 a (0 : Fin 1)) 1).val < 1)

/-- The scaled rows of a block are the block of the scaled rows: (x ⊙ s) read at a block index is (X ⊙ S) read where the
    block puts the index. -/
theorem scaled_rows_block {m M k : Nat}
    (x : FVec Ideal ⟨2, ![m, k]⟩ .f32) (s : FVec Ideal ⟨2, ![m, 1]⟩ .f32)
    (X : FVec Ideal ⟨2, ![M, k]⟩ .f32) (S : FVec Ideal ⟨2, ![M, 1]⟩ .f32)
    (ex : (⟨2, ![m, k]⟩ : Shape).Idx → (⟨2, ![M, k]⟩ : Shape).Idx)
    (es : (⟨2, ![m, 1]⟩ : Shape).Idx → (⟨2, ![M, 1]⟩ : Shape).Idx) (off : Nat)
    (hx : ∀ y, x y = X (ex y)) (hs : ∀ y, s y = S (es y))
    (hex0 : ∀ y, (ex y 0).val = off + (y 0).val)
    (hes0 : ∀ y, (es y 0).val = off + (y 0).val)
    (hk : (⟨2, ![m, 1]⟩ : Shape).Broadcasts ⟨2, ![m, k]⟩)
    (hh : (⟨2, ![M, 1]⟩ : Shape).BroadcastsInDim ⟨2, ![M, k]⟩ (![0, 1] : Fin 2 → Fin 2))
    (y : (⟨2, ![m, k]⟩ : Shape).Idx) :
    mulf x (broadcastTo ⟨2, ![m, k]⟩ s hk) y = mulf X (broadcastInDim ⟨2, ![M, k]⟩ ![0, 1] hh S) (ex y) := by
  rw [mulf_apply, mulf_apply, hx, column_block s S es ex off hs hes0 hex0 hk hh y]

/-- (x ⊙ s) · w + (the bias row over the block) on an m-row block, the product accumulated into zero, read at a block
    index j, is (X ⊙ S) · w + (the bias row over the array) read where the result block puts j. -/
theorem scaled_linear_row_block {m M k n : Nat} (prec : Option ContractPrecision)
    (x : FVec Ideal ⟨2, ![m, k]⟩ .f32) (s : FVec Ideal ⟨2, ![m, 1]⟩ .f32)
    (w : FVec Ideal ⟨2, ![k, n]⟩ .f32) (brow : FVec Ideal ⟨2, ![1, n]⟩ .f32)
    (X : FVec Ideal ⟨2, ![M, k]⟩ .f32) (S : FVec Ideal ⟨2, ![M, 1]⟩ .f32)
    (ex : (⟨2, ![m, k]⟩ : Shape).Idx → (⟨2, ![M, k]⟩ : Shape).Idx)
    (es : (⟨2, ![m, 1]⟩ : Shape).Idx → (⟨2, ![M, 1]⟩ : Shape).Idx)
    (eo : (⟨2, ![m, n]⟩ : Shape).Idx → (⟨2, ![M, n]⟩ : Shape).Idx) (off : Nat)
    (hx : ∀ y, x y = X (ex y)) (hs : ∀ y, s y = S (es y))
    (hex0 : ∀ y, (ex y 0).val = off + (y 0).val) (hex1 : ∀ y, (ex y 1).val = (y 1).val)
    (hes0 : ∀ y, (es y 0).val = off + (y 0).val)
    (heo0 : ∀ y, (eo y 0).val = off + (y 0).val) (heo1 : ∀ y, (eo y 1).val = (y 1).val)
    (hks : (⟨2, ![m, 1]⟩ : Shape).Broadcasts ⟨2, ![m, k]⟩)
    (hhs : (⟨2, ![M, 1]⟩ : Shape).BroadcastsInDim ⟨2, ![M, k]⟩ (![0, 1] : Fin 2 → Fin 2))
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec (mulf x (broadcastTo ⟨2, ![m, k]⟩ s hks)) w
          (constant ⟨2, ![m, n]⟩ .f32 0x00000000#32))
        (broadcastTo ⟨2, ![m, n]⟩ brow hk) j
      = addf (Host.dotGeneral (DotDims.plain M k n) prec (mulf X (broadcastInDim ⟨2, ![M, k]⟩ ![0, 1] hhs S)) w)
          (broadcastInDim ⟨2, ![M, n]⟩ ![0, 1] hh brow) (eo j) := by
  have hxs : ∀ y, mulf x (broadcastTo ⟨2, ![m, k]⟩ s hks) y = mulf X (broadcastInDim ⟨2, ![M, k]⟩ ![0, 1] hhs S) (ex y) :=
    fun y => scaled_rows_block x s X S ex es off hx hs hex0 hes0 hks hhs y
  rw [addf_apply, addf_apply,
    plain_product_row_block prec (mulf x (broadcastTo ⟨2, ![m, k]⟩ s hks)) w
      (mulf X (broadcastInDim ⟨2, ![M, k]⟩ ![0, 1] hhs S)) w ex id eo off hxs (fun _ => rfl) hex0 hex1
      (fun _ => rfl) (fun _ => rfl) heo0 heo1 j,
    bias_row_block brow eo heo1 hk hh j]

/-- The rectified layer: max((x ⊙ s) · w + bias row, z) on an m-row block against a splat of the constant z, read at a
    block index j, is the host's max of the whole-array layer and its spread of z, read where the result block puts j. -/
theorem relu_scaled_linear_row_block {m M k n : Nat} (prec : Option ContractPrecision)
    (x : FVec Ideal ⟨2, ![m, k]⟩ .f32) (s : FVec Ideal ⟨2, ![m, 1]⟩ .f32)
    (w : FVec Ideal ⟨2, ![k, n]⟩ .f32) (brow : FVec Ideal ⟨2, ![1, n]⟩ .f32)
    (X : FVec Ideal ⟨2, ![M, k]⟩ .f32) (S : FVec Ideal ⟨2, ![M, 1]⟩ .f32)
    (ex : (⟨2, ![m, k]⟩ : Shape).Idx → (⟨2, ![M, k]⟩ : Shape).Idx)
    (es : (⟨2, ![m, 1]⟩ : Shape).Idx → (⟨2, ![M, 1]⟩ : Shape).Idx)
    (eo : (⟨2, ![m, n]⟩ : Shape).Idx → (⟨2, ![M, n]⟩ : Shape).Idx) (off : Nat)
    (hx : ∀ y, x y = X (ex y)) (hs : ∀ y, s y = S (es y))
    (hex0 : ∀ y, (ex y 0).val = off + (y 0).val) (hex1 : ∀ y, (ex y 1).val = (y 1).val)
    (hes0 : ∀ y, (es y 0).val = off + (y 0).val)
    (heo0 : ∀ y, (eo y 0).val = off + (y 0).val) (heo1 : ∀ y, (eo y 1).val = (y 1).val)
    (hks : (⟨2, ![m, 1]⟩ : Shape).Broadcasts ⟨2, ![m, k]⟩)
    (hhs : (⟨2, ![M, 1]⟩ : Shape).BroadcastsInDim ⟨2, ![M, k]⟩ (![0, 1] : Fin 2 → Fin 2))
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (matmul (DotDims.plain m k n) prec (mulf x (broadcastTo ⟨2, ![m, k]⟩ s hks)) w
            (constant ⟨2, ![m, n]⟩ .f32 0x00000000#32))
          (broadcastTo ⟨2, ![m, n]⟩ brow hk))
        (broadcast ⟨2, ![m, n]⟩ (Scalar.ofBits (F := Ideal) .f32 z)) j
      = maximumf (addf (Host.dotGeneral (DotDims.plain M k n) prec (mulf X (broadcastInDim ⟨2, ![M, k]⟩ ![0, 1] hhs S)) w)
            (broadcastInDim ⟨2, ![M, n]⟩ ![0, 1] hh brow))
          (broadcastInDim ⟨2, ![M, n]⟩ ![] hz (constant ⟨0, ![]⟩ .f32 z)) (eo j) := by
  rw [maximumf_apply, maximumf_apply,
    scaled_linear_row_block prec x s w brow X S ex es eo off hx hs hex0 hex1 hes0 heo0 heo1 hks hhs hk hh j,
    splat_apply]
  rfl

/-- A second scaling of the rows: (y ⊙ t) on a block, read at a block index j, is (Y ⊙ T) read where the block puts j,
    once y at j is Y where the block puts j. -/
theorem rescaled_row_block {m M n : Nat}
    (y : FVec Ideal ⟨2, ![m, n]⟩ .f32) (t : FVec Ideal ⟨2, ![m, 1]⟩ .f32)
    (Y : FVec Ideal ⟨2, ![M, n]⟩ .f32) (T : FVec Ideal ⟨2, ![M, 1]⟩ .f32)
    (et : (⟨2, ![m, 1]⟩ : Shape).Idx → (⟨2, ![M, 1]⟩ : Shape).Idx)
    (eo : (⟨2, ![m, n]⟩ : Shape).Idx → (⟨2, ![M, n]⟩ : Shape).Idx) (off : Nat)
    (ht : ∀ q, t q = T (et q))
    (het0 : ∀ q, (et q 0).val = off + (q 0).val)
    (heo0 : ∀ q, (eo q 0).val = off + (q 0).val)
    (hk : (⟨2, ![m, 1]⟩ : Shape).Broadcasts ⟨2, ![m, n]⟩)
    (hh : (⟨2, ![M, 1]⟩ : Shape).BroadcastsInDim ⟨2, ![M, n]⟩ (![0, 1] : Fin 2 → Fin 2))
    (j : (⟨2, ![m, n]⟩ : Shape).Idx) (hy : y j = Y (eo j)) :
    mulf y (broadcastTo ⟨2, ![m, n]⟩ t hk) j = mulf Y (broadcastInDim ⟨2, ![M, n]⟩ ![0, 1] hh T) (eo j) := by
  rw [mulf_apply, mulf_apply, hy, column_block t T et eo off ht het0 heo0 hk hh j]

end Cert.Lib

end
-- ==== Proof.KernelBlock.lean ====
/-
  What one grid point of each tiled region computes, read at a block index.

  Every region's body works on one block of 10000 rows: it scales the rows of the aggregate's block by the block of the
  in-degree column, multiplies by the layer's weights (the whole 128 × 128 array) into a zero accumulator, adds the bias
  row, and — depending on the region — rectifies and scales the rows by the block of the out-degree column. Read at a
  block index, each stored value is the network's whole-array dense part (rectified, rescaled) read where the output block
  puts that index: the statement needs of the blocks only that each is its array read through an index map that shifts
  rows by the block's offset and keeps columns.
-/
import proofs.«143446_j21388937134412_2_alg».proof.Proof.Gen.KernelIdeal.Skeleton
import proofs.«143446_j21388937134412_2_alg».proof.Proof.Gen.KernelIdeal
import proofs.«143446_j21388937134412_2_alg».proof.Proof.Net
import proofs.«143446_j21388937134412_2_alg».proof.Proof.LibScaledLayer

noncomputable section

namespace Cert.KernelIdeal.Block

open Idealize.ShloMosaic Idealize.ShloMosaic.ValueIdx Cert.KernelIdeal Cert.KernelIdeal.Gen

/-- The rectified dense part on a block (the third region's first store). -/
theorem relu_apply (x0 : Vec Ideal S10000x128 .f32) (x1 : Vec Ideal S10000x1 .f32) (x2 : Vec Ideal S128x128 .f32)
    (x3 : Vec Ideal S1x128 .f32) (A : Cert.Net.Nodes) (S : Cert.Net.Col)
    (W : FVec Ideal S128x128 .f32) (B : FVec Ideal S1x128 .f32)
    (e0 eo : S10000x128.Idx → S100000x128.Idx) (e1 : S10000x1.Idx → S100000x1.Idx) (off : Nat)
    (h0 : ∀ y, x0 y = A (e0 y)) (h1 : ∀ y, x1 y = S (e1 y)) (h2 : x2 = W) (h3 : x3 = B)
    (he00 : ∀ y, (e0 y 0).val = off + (y 0).val) (he01 : ∀ y, (e0 y 1).val = (y 1).val)
    (he10 : ∀ y, (e1 y 0).val = off + (y 0).val)
    (heo0 : ∀ y, (eo y 0).val = off + (y 0).val) (heo1 : ∀ y, (eo y 1).val = (y 1).val)
    (j : S10000x128.Idx) :
    k2_pay1 x0 x1 x2 x3 j = Cert.Net.relu (Cert.Net.dense A S W B) (eo j) := by
  subst h2 h3
  unfold k2_pay1
  simp only [shapeCast_self]
  exact Cert.Lib.relu_scaled_linear_row_block none x0 x1 x2 x3 A S e0 e1 eo off h0 h1 he00 he01 he10 heo0 heo1
    _ _ _ _ 0x00000000#32 _ j

/-- The rectified dense part rescaled for the next layer's gather (the third region's second store). -/
theorem relu_scaled_apply2 (x0 : Vec Ideal S10000x128 .f32) (x1 : Vec Ideal S10000x1 .f32) (x2 : Vec Ideal S128x128 .f32)
    (x3 : Vec Ideal S1x128 .f32) (x4 : Vec Ideal S10000x1 .f32) (A : Cert.Net.Nodes) (S : Cert.Net.Col)
    (W : FVec Ideal S128x128 .f32) (B : FVec Ideal S1x128 .f32)
    (e0 eo : S10000x128.Idx → S100000x128.Idx) (e1 : S10000x1.Idx → S100000x1.Idx) (off : Nat)
    (h0 : ∀ y, x0 y = A (e0 y)) (h1 : ∀ y, x1 y = S (e1 y)) (h2 : x2 = W) (h3 : x3 = B)
    (he00 : ∀ y, (e0 y 0).val = off + (y 0).val) (he01 : ∀ y, (e0 y 1).val = (y 1).val)
    (he10 : ∀ y, (e1 y 0).val = off + (y 0).val)
    (heo0 : ∀ y, (eo y 0).val = off + (y 0).val) (heo1 : ∀ y, (eo y 1).val = (y 1).val)
    (T : Cert.Net.Col) (e4 : S10000x1.Idx → S100000x1.Idx) (h4 : ∀ y, x4 y = T (e4 y))
    (he40 : ∀ y, (e4 y 0).val = off + (y 0).val)
    (j : S10000x128.Idx) :
    k2_pay2 x0 x1 x2 x3 x4 j = Cert.Net.scale (Cert.Net.relu (Cert.Net.dense A S W B)) T (eo j) := by
  unfold k2_pay2
  simp only [shapeCast_self]
  exact Cert.Lib.rescaled_row_block _ x4 _ T e4 eo off h4 he40 heo0 _ _ j
    (relu_apply x0 x1 x2 x3 A S W B e0 eo e1 off h0 h1 h2 h3 he00 he01 he10 heo0 heo1 j)

/-- The same value stored by the regions that keep only the rescaled output (regions 0, 1 and 3 run one body). -/
theorem relu_scaled_apply (x0 : Vec Ideal S10000x128 .f32) (x1 : Vec Ideal S10000x1 .f32) (x2 : Vec Ideal S128x128 .f32)
    (x3 : Vec Ideal S1x128 .f32) (x4 : Vec Ideal S10000x1 .f32) (A : Cert.Net.Nodes) (S : Cert.Net.Col)
    (W : FVec Ideal S128x128 .f32) (B : FVec Ideal S1x128 .f32)
    (e0 eo : S10000x128.Idx → S100000x128.Idx) (e1 : S10000x1.Idx → S100000x1.Idx) (off : Nat)
    (h0 : ∀ y, x0 y = A (e0 y)) (h1 : ∀ y, x1 y = S (e1 y)) (h2 : x2 = W) (h3 : x3 = B)
    (he00 : ∀ y, (e0 y 0).val = off + (y 0).val) (he01 : ∀ y, (e0 y 1).val = (y 1).val)
    (he10 : ∀ y, (e1 y 0).val = off + (y 0).val)
    (heo0 : ∀ y, (eo y 0).val = off + (y 0).val) (heo1 : ∀ y, (eo y 1).val = (y 1).val)
    (T : Cert.Net.Col) (e4 : S10000x1.Idx → S100000x1.Idx) (h4 : ∀ y, x4 y = T (e4 y))
    (he40 : ∀ y, (e4 y 0).val = off + (y 0).val)
    (j : S10000x128.Idx) :
    k0_pay1 x0 x1 x2 x3 x4 j = Cert.Net.scale (Cert.Net.relu (Cert.Net.dense A S W B)) T (eo j) :=
  relu_scaled_apply2 x0 x1 x2 x3 x4 A S W B e0 eo e1 off h0 h1 h2 h3 he00 he01 he10 heo0 heo1 T e4 h4 he40 j

theorem k1_pay1_eq : @k1_pay1 Ideal _ = @k0_pay1 Ideal _ := rfl
theorem k3_pay1_eq : @k3_pay1 Ideal _ = @k0_pay1 Ideal _ := rfl

/-- The last region's store: the dense part alone. -/
theorem dense_apply (x0 : Vec Ideal S10000x128 .f32) (x1 : Vec Ideal S10000x1 .f32) (x2 : Vec Ideal S128x128 .f32)
    (x3 : Vec Ideal S1x128 .f32) (A : Cert.Net.Nodes) (S : Cert.Net.Col)
    (W : FVec Ideal S128x128 .f32) (B : FVec Ideal S1x128 .f32)
    (e0 eo : S10000x128.Idx → S100000x128.Idx) (e1 : S10000x1.Idx → S100000x1.Idx) (off : Nat)
    (h0 : ∀ y, x0 y = A (e0 y)) (h1 : ∀ y, x1 y = S (e1 y)) (h2 : x2 = W) (h3 : x3 = B)
    (he00 : ∀ y, (e0 y 0).val = off + (y 0).val) (he01 : ∀ y, (e0 y 1).val = (y 1).val)
    (he10 : ∀ y, (e1 y 0).val = off + (y 0).val)
    (heo0 : ∀ y, (eo y 0).val = off + (y 0).val) (heo1 : ∀ y, (eo y 1).val = (y 1).val)
    (j : S10000x128.Idx) :
    k4_pay1 x0 x1 x2 x3 j = Cert.Net.dense A S W B (eo j) := by
  subst h2 h3
  unfold k4_pay1
  simp only [shapeCast_self]
  exact Cert.Lib.scaled_linear_row_block none x0 x1 x2 x3 A S e0 e1 eo off h0 h1 he00 he01 he10 heo0 heo1 _ _ _ _ j

end Cert.KernelIdeal.Block

end
-- ==== Proof.Region0.lean ====
/-
  What region 0 leaves in its output array, as one whole-array function of the arrays it finds.

  The region runs ten grid points; point t works on rows 10000 t, …, 10000 t + 9999 of the aggregate, of the two degree
  columns and of the output, and on the whole weights and bias row. Each point writes back its block of the rectified,
  rescaled dense part of the layer; the ten blocks tile the output array, so the array ends holding that function.
-/
import proofs.«143446_j21388937134412_2_alg».proof.Proof.Gen.KernelIdeal.Frame
import proofs.«143446_j21388937134412_2_alg».proof.Proof.KernelBlock

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the grid: the row-tiled windows sit at block row t, the weights and the bias
    row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The weights' block at any point is the whole weights array. -/
theorem weights_blk (c : Dev nD) (t : Fin cfg0.N) : iblk0 V c 2 t = (V c main_arg3 : S128x128.Idx → EReal) := by
  obtain ⟨-, -, -, -, e20, e21, -⟩ := idx_facts t
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

/-- The bias row's block at any point is the whole row. -/
theorem bias_blk (c : Dev nD) (t : Fin cfg0.N) : iblk0 V c 3 t = (V c main_v21 : S1x128.Idx → EReal) := by
  obtain ⟨-, -, -, -, -, -, e30, e31, -⟩ := idx_facts t
  funext y
  show V c main_v21 (((cfg0.win 3).blk t).view.emb y) = V c main_v21 y
  refine congrArg _ (funext fun a => Fin.ext ?_)
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

/-- What point t writes back is block t of the rectified, rescaled dense part of the arrays as the region finds them. -/
theorem flushed_eq (c : Dev nD) (t : Fin cfg0.N) :
    (dat0 V c).flushed 5 t = ((cfg0.win 5).blk t).view.read (Elt Ideal)
      (Cert.Net.scale (Cert.Net.relu (Cert.Net.dense (V c main_v44) (V c main_v20) (V c main_arg3) (V c main_v21))) (V c main_v19)) := by
  show (cfg0.win 5).cut (grid0.coords t) ((dat0 V c).after 5 t) = _
  rw [after0_5]
  unfold out0_5
  rw [View.canon_unit_zero origin]
  simp only [View.ld_unit_zero (S := S10000x128) origin, View.ld_unit_zero (S := S10000x1) origin,
    View.ld_unit_zero (S := S128x128) origin, View.ld_unit_zero (S := S1x128) origin]
  obtain ⟨e00, e01, e10, e11, e20, e21, e30, e31, e40, e41, e50, e51⟩ := idx_facts t
  funext j
  show k0_pay1 (iblk0 V c 0 t) (iblk0 V c 1 t) (iblk0 V c 2 t) (iblk0 V c 3 t) (iblk0 V c 4 t) j
    = Cert.Net.scale (Cert.Net.relu (Cert.Net.dense (V c main_v44) (V c main_v20) (V c main_arg3) (V c main_v21))) (V c main_v19)
        (((cfg0.win 5).blk t).view.emb j)
  refine Cert.KernelIdeal.Block.relu_scaled_apply (iblk0 V c 0 t) (iblk0 V c 1 t) (iblk0 V c 2 t) (iblk0 V c 3 t)
    (iblk0 V c 4 t) (V c main_v44) (V c main_v20) (V c main_arg3) (V c main_v21)
    (((cfg0.win 0).blk t).view.emb) (((cfg0.win 5).blk t).view.emb) (((cfg0.win 1).blk t).view.emb) (t.val * 10000)
    (fun _ => rfl) (fun _ => rfl) (weights_blk V c t) (bias_blk V c t) ?_ ?_ ?_ ?_ ?_ (V c main_v19)
    (((cfg0.win 4).blk t).view.emb) (fun _ => rfl) ?_ j
  · intro y; show win0_0.index t (0 : Fin 2) * 10000 + 1 * (y 0).val = t.val * 10000 + (y 0).val; rw [e00]; omega
  · intro y; show win0_0.index t (1 : Fin 2) * 128 + 1 * (y 1).val = (y 1).val; rw [e01]; omega
  · intro y; show win0_1.index t (0 : Fin 2) * 10000 + 1 * (y 0).val = t.val * 10000 + (y 0).val; rw [e10]; omega
  · intro y; show win0_5.index t (0 : Fin 2) * 10000 + 1 * (y 0).val = t.val * 10000 + (y 0).val; rw [e50]; omega
  · intro y; show win0_5.index t (1 : Fin 2) * 128 + 1 * (y 1).val = (y 1).val; rw [e51]; omega
  · intro y; show win0_4.index t (0 : Fin 2) * 10000 + 1 * (y 0).val = t.val * 10000 + (y 0).val; rw [e40]; omega

/-- An index of the output array is in point t's block iff each coordinate is in the block's range on its axis. -/
theorem mem_blk (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v45).slice (win0_5.rect t)).set ↔ _
  rw [View.set_slice_whole, Rect.mem_set_unit]
  exact Iff.rfl

/-- Every index of the output array is in the block of the point its row falls in. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 10000 < grid0.N := by rw [N_0]; omega
  obtain ⟨-, -, -, -, -, -, -, -, -, -, e50, e51⟩ := idx_facts ⟨(i 0).val / 10000, ht⟩
  refine ⟨⟨(i 0).val / 10000, ht⟩, flush0_5 _, ?_⟩
  rw [mem_blk]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win0_5.index ⟨(i 0).val / 10000, ht⟩ (1 : Fin 2) * 128 ≤ (i 1).val
      ∧ (i 1).val < win0_5.index ⟨(i 0).val / 10000, ht⟩ (1 : Fin 2) * 128 + 128
    rw [e51]; omega

/-- The output array after the region: the rectified, rescaled dense part of the arrays the region finds. -/
theorem out (c : Dev nD) :
    (dat0 V c).arrAt 5 cfg0.N
      = Cert.Net.scale (Cert.Net.relu (Cert.Net.dense (V c main_v44) (V c main_v20) (V c main_arg3) (V c main_v21))) (V c main_v19) :=
  (dat0 V c).arrAt_eq_of_cover 5 _ (fun t _ => flushed_eq V c t) cover

end Cert.KernelIdeal.Region0

end
-- ==== Proof.Region1.lean ====
/-
  What region 1 leaves in its output array, as one whole-array function of the arrays it finds.

  The region runs ten grid points; point t works on rows 10000 t, …, 10000 t + 9999 of the aggregate, of the two degree
  columns and of the output, and on the whole weights and bias row. Each point writes back its block of the rectified,
  rescaled dense part of the layer; the ten blocks tile the output array, so the array ends holding that function.
-/
import proofs.«143446_j21388937134412_2_alg».proof.Proof.Gen.KernelIdeal.Frame
import proofs.«143446_j21388937134412_2_alg».proof.Proof.KernelBlock

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the grid: the row-tiled windows sit at block row t, the weights and the bias
    row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The weights' block at any point is the whole weights array. -/
theorem weights_blk (c : Dev nD) (t : Fin cfg1.N) : iblk1 V c 2 t = (V c main_arg5 : S128x128.Idx → EReal) := by
  obtain ⟨-, -, -, -, e20, e21, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 128 + 1 * (y 0).val = (y 0).val; rw [e20]; omega
  | ⟨1, _⟩ => show win1_2.index t (1 : Fin 2) * 128 + 1 * (y 1).val = (y 1).val; rw [e21]; omega

/-- The bias row's block at any point is the whole row. -/
theorem bias_blk (c : Dev nD) (t : Fin cfg1.N) : iblk1 V c 3 t = (V c main_v22 : S1x128.Idx → EReal) := by
  obtain ⟨-, -, -, -, -, -, e30, e31, -⟩ := idx_facts t
  funext y
  show V c main_v22 (((cfg1.win 3).blk t).view.emb y) = V c main_v22 y
  refine congrArg _ (funext fun a => Fin.ext ?_)
  match a with
  | ⟨0, _⟩ => show win1_3.index t (0 : Fin 2) * 1 + 1 * (y 0).val = (y 0).val; rw [e30]; omega
  | ⟨1, _⟩ => show win1_3.index t (1 : Fin 2) * 128 + 1 * (y 1).val = (y 1).val; rw [e31]; omega

/-- What point t writes back is block t of the rectified, rescaled dense part of the arrays as the region finds them. -/
theorem flushed_eq (c : Dev nD) (t : Fin cfg1.N) :
    (dat1 V c).flushed 5 t = ((cfg1.win 5).blk t).view.read (Elt Ideal)
      (Cert.Net.scale (Cert.Net.relu (Cert.Net.dense (V c main_v55) (V c main_v20) (V c main_arg5) (V c main_v22))) (V c main_v19)) := by
  show (cfg1.win 5).cut (grid1.coords t) ((dat1 V c).after 5 t) = _
  rw [after1_5]
  unfold out1_5
  rw [View.canon_unit_zero origin]
  simp only [View.ld_unit_zero (S := S10000x128) origin, View.ld_unit_zero (S := S10000x1) origin,
    View.ld_unit_zero (S := S128x128) origin, View.ld_unit_zero (S := S1x128) origin]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) j
    = Cert.Net.scale (Cert.Net.relu (Cert.Net.dense (V c main_v55) (V c main_v20) (V c main_arg5) (V c main_v22))) (V c main_v19)
        (((cfg1.win 5).blk t).view.emb j)
  rw [Cert.KernelIdeal.Block.k1_pay1_eq]
  refine Cert.KernelIdeal.Block.relu_scaled_apply (iblk1 V c 0 t) (iblk1 V c 1 t) (iblk1 V c 2 t) (iblk1 V c 3 t)
    (iblk1 V c 4 t) (V c main_v55) (V c main_v20) (V c main_arg5) (V c main_v22)
    (((cfg1.win 0).blk t).view.emb) (((cfg1.win 5).blk t).view.emb) (((cfg1.win 1).blk t).view.emb) (t.val * 10000)
    (fun _ => rfl) (fun _ => rfl) (weights_blk V c t) (bias_blk V c t) ?_ ?_ ?_ ?_ ?_ (V c main_v19)
    (((cfg1.win 4).blk t).view.emb) (fun _ => rfl) ?_ j
  · intro y; show win1_0.index t (0 : Fin 2) * 10000 + 1 * (y 0).val = t.val * 10000 + (y 0).val; rw [e00]; omega
  · intro y; show win1_0.index t (1 : Fin 2) * 128 + 1 * (y 1).val = (y 1).val; rw [e01]; omega
  · intro y; show win1_1.index t (0 : Fin 2) * 10000 + 1 * (y 0).val = t.val * 10000 + (y 0).val; rw [e10]; omega
  · intro y; show win1_5.index t (0 : Fin 2) * 10000 + 1 * (y 0).val = t.val * 10000 + (y 0).val; rw [e50]; omega
  · intro y; show win1_5.index t (1 : Fin 2) * 128 + 1 * (y 1).val = (y 1).val; rw [e51]; omega
  · intro y; show win1_4.index t (0 : Fin 2) * 10000 + 1 * (y 0).val = t.val * 10000 + (y 0).val; rw [e40]; omega

/-- An index of the output array is in point t's block iff each coordinate is in the block's range on its axis. -/
theorem mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v56).slice (win1_5.rect t)).set ↔ _
  rw [View.set_slice_whole, Rect.mem_set_unit]
  exact Iff.rfl

/-- Every index of the output array is in the block of the point its row falls in. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 10000 < grid1.N := by rw [N_1]; omega
  obtain ⟨-, -, -, -, -, -, -, -, -, -, e50, e51⟩ := idx_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, ht⟩ (1 : Fin 2) * 128 ≤ (i 1).val
      ∧ (i 1).val < win1_5.index ⟨(i 0).val / 10000, ht⟩ (1 : Fin 2) * 128 + 128
    rw [e51]; omega

/-- The output array after the region: the rectified, rescaled dense part of the arrays the region finds. -/
theorem out (c : Dev nD) :
    (dat1 V c).arrAt 5 cfg1.N
      = Cert.Net.scale (Cert.Net.relu (Cert.Net.dense (V c main_v55) (V c main_v20) (V c main_arg5) (V c main_v22))) (V c main_v19) :=
  (dat1 V c).arrAt_eq_of_cover 5 _ (fun t _ => flushed_eq V c t) cover

end Cert.KernelIdeal.Region1

end
-- ==== Proof.Region2.lean ====
/-
  What region 2 leaves in its two output arrays, as whole-array functions of the arrays it finds.

  The region runs ten grid points; point t works on rows 10000 t, …, 10000 t + 9999 of the aggregate, of the two degree
  columns and of the outputs, and on the whole weights and bias row. Each point writes back two blocks: the rectified
  dense part of the layer (the third layer's output, which the program returns) and the same rescaled for the next
  layer's gather. The ten blocks of each output tile its array, so each array ends holding its function.
-/
import proofs.«143446_j21388937134412_2_alg».proof.Proof.Gen.KernelIdeal.Frame
import proofs.«143446_j21388937134412_2_alg».proof.Proof.KernelBlock

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the grid: the row-tiled windows sit at block row t, the weights and the bias
    row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The weights' block at any point is the whole weights array. -/
theorem weights_blk (c : Dev nD) (t : Fin cfg2.N) : iblk2 V c 2 t = (V c main_arg7 : S128x128.Idx → EReal) := by
  obtain ⟨-, -, -, -, e20, e21, -, -, -, -, -, -, -, -⟩ := idx_facts t
  funext y
  show V c main_arg7 (((cfg2.win 2).blk t).view.emb y) = V c main_arg7 y
  refine congrArg _ (funext fun a => Fin.ext ?_)
  match a with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega

/-- The bias row's block at any point is the whole row. -/
theorem bias_blk (c : Dev nD) (t : Fin cfg2.N) : iblk2 V c 3 t = (V c main_v23 : S1x128.Idx → EReal) := by
  obtain ⟨-, -, -, -, -, -, e30, e31, -, -, -, -, -, -⟩ := idx_facts t
  funext y
  show V c main_v23 (((cfg2.win 3).blk t).view.emb y) = V c main_v23 y
  refine congrArg _ (funext fun a => Fin.ext ?_)
  match a with
  | ⟨0, _⟩ => show win2_3.index t (0 : Fin 2) * 1 + 1 * (y 0).val = (y 0).val; rw [e30]; omega
  | ⟨1, _⟩ => show win2_3.index t (1 : Fin 2) * 128 + 1 * (y 1).val = (y 1).val; rw [e31]; omega

/-- What point t writes back through window 5 is block t of the rectified dense part of the arrays as the region finds them. -/
theorem flushed_eq5 (c : Dev nD) (t : Fin cfg2.N) :
    (dat2 V c).flushed 5 t = ((cfg2.win 5).blk t).view.read (Elt Ideal)
      (Cert.Net.relu (Cert.Net.dense (V c main_v66) (V c main_v20) (V c main_arg7) (V c main_v23))) := by
  show (cfg2.win 5).cut (grid2.coords t) ((dat2 V c).after 5 t) = _
  rw [after2_5]
  unfold out2_5
  rw [View.canon_unit_zero origin]
  simp only [View.ld_unit_zero (S := S10000x128) origin, View.ld_unit_zero (S := S10000x1) origin,
    View.ld_unit_zero (S := S128x128) origin, View.ld_unit_zero (S := S1x128) origin]
  obtain ⟨e00, e01, e10, e11, e20, e21, e30, e31, e40, e41, e50, e51, e60, e61⟩ := idx_facts t
  funext j
  show k2_pay1 (iblk2 V c 0 t) (iblk2 V c 1 t) (iblk2 V c 2 t) (iblk2 V c 3 t) j
    = (Cert.Net.relu (Cert.Net.dense (V c main_v66) (V c main_v20) (V c main_arg7) (V c main_v23)))
        (((cfg2.win 5).blk t).view.emb j)
  refine Cert.KernelIdeal.Block.relu_apply (iblk2 V c 0 t) (iblk2 V c 1 t) (iblk2 V c 2 t) (iblk2 V c 3 t)
    (V c main_v66) (V c main_v20) (V c main_arg7) (V c main_v23)
    (((cfg2.win 0).blk t).view.emb) (((cfg2.win 5).blk t).view.emb) (((cfg2.win 1).blk t).view.emb) (t.val * 10000)
    (fun _ => rfl) (fun _ => rfl) (weights_blk V c t) (bias_blk V c t) ?_ ?_ ?_ ?_ ?_ j
  · intro y; show win2_0.index t (0 : Fin 2) * 10000 + 1 * (y 0).val = t.val * 10000 + (y 0).val; rw [e00]; omega
  · intro y; show win2_0.index t (1 : Fin 2) * 128 + 1 * (y 1).val = (y 1).val; rw [e01]; omega
  · intro y; show win2_1.index t (0 : Fin 2) * 10000 + 1 * (y 0).val = t.val * 10000 + (y 0).val; rw [e10]; omega
  · intro y; show win2_5.index t (0 : Fin 2) * 10000 + 1 * (y 0).val = t.val * 10000 + (y 0).val; rw [e50]; omega
  · intro y; show win2_5.index t (1 : Fin 2) * 128 + 1 * (y 1).val = (y 1).val; rw [e51]; omega

/-- An index of the array of window 5 is in point t's block iff each coordinate is in the block's range on its axis. -/
theorem mem_blk5 (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v67_0).slice (win2_5.rect t)).set ↔ _
  rw [View.set_slice_whole, Rect.mem_set_unit]
  exact Iff.rfl

/-- Every index of that array is in the block of the point its row falls in. -/
theorem cover5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 10000 < grid2.N := by rw [N_2]; omega
  obtain ⟨e00, e01, e10, e11, e20, e21, e30, e31, e40, e41, e50, e51, e60, e61⟩ := idx_facts ⟨(i 0).val / 10000, ht⟩
  refine ⟨⟨(i 0).val / 10000, ht⟩, flush2_5 _, ?_⟩
  rw [mem_blk5]
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win2_5.index ⟨(i 0).val / 10000, ht⟩ (1 : Fin 2) * 128 ≤ (i 1).val
      ∧ (i 1).val < win2_5.index ⟨(i 0).val / 10000, ht⟩ (1 : Fin 2) * 128 + 128
    rw [e51]; omega

/-- The array of window 5 after the region: the rectified dense part of the arrays the region finds. -/
theorem out5 (c : Dev nD) :
    (dat2 V c).arrAt 5 cfg2.N
      = (Cert.Net.relu (Cert.Net.dense (V c main_v66) (V c main_v20) (V c main_arg7) (V c main_v23))) :=
  (dat2 V c).arrAt_eq_of_cover 5 _ (fun t _ => flushed_eq5 V c t) cover5

/-- What point t writes back through window 6 is block t of the rectified, rescaled dense part of the arrays as the region finds them. -/
theorem flushed_eq6 (c : Dev nD) (t : Fin cfg2.N) :
    (dat2 V c).flushed 6 t = ((cfg2.win 6).blk t).view.read (Elt Ideal)
      (Cert.Net.scale (Cert.Net.relu (Cert.Net.dense (V c main_v66) (V c main_v20) (V c main_arg7) (V c main_v23))) (V c main_v19)) := by
  show (cfg2.win 6).cut (grid2.coords t) ((dat2 V c).after 6 t) = _
  rw [after2_6]
  unfold out2_6
  rw [View.canon_unit_zero origin]
  simp only [View.ld_unit_zero (S := S10000x128) origin, View.ld_unit_zero (S := S10000x1) origin,
    View.ld_unit_zero (S := S128x128) origin, View.ld_unit_zero (S := S1x128) origin]
  obtain ⟨e00, e01, e10, e11, e20, e21, e30, e31, e40, e41, e50, e51, e60, e61⟩ := idx_facts t
  funext j
  show k2_pay2 (iblk2 V c 0 t) (iblk2 V c 1 t) (iblk2 V c 2 t) (iblk2 V c 3 t) (iblk2 V c 4 t) j
    = (Cert.Net.scale (Cert.Net.relu (Cert.Net.dense (V c main_v66) (V c main_v20) (V c main_arg7) (V c main_v23))) (V c main_v19))
        (((cfg2.win 6).blk t).view.emb j)
  refine Cert.KernelIdeal.Block.relu_scaled_apply2 (iblk2 V c 0 t) (iblk2 V c 1 t) (iblk2 V c 2 t) (iblk2 V c 3 t) (iblk2 V c 4 t)
    (V c main_v66) (V c main_v20) (V c main_arg7) (V c main_v23)
    (((cfg2.win 0).blk t).view.emb) (((cfg2.win 6).blk t).view.emb) (((cfg2.win 1).blk t).view.emb) (t.val * 10000)
    (fun _ => rfl) (fun _ => rfl) (weights_blk V c t) (bias_blk V c t) ?_ ?_ ?_ ?_ ?_ (V c main_v19)
    (((cfg2.win 4).blk t).view.emb) (fun _ => rfl) ?_ j
  · intro y; show win2_0.index t (0 : Fin 2) * 10000 + 1 * (y 0).val = t.val * 10000 + (y 0).val; rw [e00]; omega
  · intro y; show win2_0.index t (1 : Fin 2) * 128 + 1 * (y 1).val = (y 1).val; rw [e01]; omega
  · intro y; show win2_1.index t (0 : Fin 2) * 10000 + 1 * (y 0).val = t.val * 10000 + (y 0).val; rw [e10]; omega
  · intro y; show win2_6.index t (0 : Fin 2) * 10000 + 1 * (y 0).val = t.val * 10000 + (y 0).val; rw [e60]; omega
  · intro y; show win2_6.index t (1 : Fin 2) * 128 + 1 * (y 1).val = (y 1).val; rw [e61]; omega
  · intro y; show win2_4.index t (0 : Fin 2) * 10000 + 1 * (y 0).val = t.val * 10000 + (y 0).val; rw [e40]; omega

/-- An index of the array of window 6 is in point t's block iff each coordinate is in the block's range on its axis. -/
theorem mem_blk6 (t : Fin cfg2.N) (i : S100000x128.Idx) :
    i ∈ ((cfg2.win 6).blk t).view.set ↔ ∀ a : Fin 2, win2_6.index t a * S10000x128.size a ≤ (i a).val
      ∧ (i a).val < win2_6.index t a * S10000x128.size a + S10000x128.size a := by
  show i ∈ ((View.whole main_v67_1).slice (win2_6.rect t)).set ↔ _
  rw [View.set_slice_whole, Rect.mem_set_unit]
  exact Iff.rfl

/-- Every index of that array is in the block of the point its row falls in. -/
theorem cover6 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 10000 < grid2.N := by rw [N_2]; omega
  obtain ⟨e00, e01, e10, e11, e20, e21, e30, e31, e40, e41, e50, e51, e60, e61⟩ := idx_facts ⟨(i 0).val / 10000, ht⟩
  refine ⟨⟨(i 0).val / 10000, ht⟩, flush2_6 _, ?_⟩
  rw [mem_blk6]
  intro a
  match a with
  | ⟨0, _⟩ =>
    show win2_6.index ⟨(i 0).val / 10000, ht⟩ (0 : Fin 2) * 10000 ≤ (i 0).val
      ∧ (i 0).val < win2_6.index ⟨(i 0).val / 10000, ht⟩ (0 : Fin 2) * 10000 + 10000
    rw [e60]; show (i 0).val / 10000 * 10000 ≤ (i 0).val ∧ (i 0).val < (i 0).val / 10000 * 10000 + 10000; omega
  | ⟨1, _⟩ =>
    show win2_6.index ⟨(i 0).val / 10000, ht⟩ (1 : Fin 2) * 128 ≤ (i 1).val
      ∧ (i 1).val < win2_6.index ⟨(i 0).val / 10000, ht⟩ (1 : Fin 2) * 128 + 128
    rw [e61]; omega

/-- The array of window 6 after the region: the rectified, rescaled dense part of the arrays the region finds. -/
theorem out6 (c : Dev nD) :
    (dat2 V c).arrAt 6 cfg2.N
      = (Cert.Net.scale (Cert.Net.relu (Cert.Net.dense (V c main_v66) (V c main_v20) (V c main_arg7) (V c main_v23))) (V c main_v19)) :=
  (dat2 V c).arrAt_eq_of_cover 6 _ (fun t _ => flushed_eq6 V c t) cover6

end Cert.KernelIdeal.Region2

end
-- ==== Proof.Region3.lean ====
/-
  What region 3 leaves in its output array, as one whole-array function of the arrays it finds.

  The region runs ten grid points; point t works on rows 10000 t, …, 10000 t + 9999 of the aggregate, of the two degree
  columns and of the output, and on the whole weights and bias row. Each point writes back its block of the rectified,
  rescaled dense part of the layer; the ten blocks tile the output array, so the array ends holding that function.
-/
import proofs.«143446_j21388937134412_2_alg».proof.Proof.Gen.KernelIdeal.Frame
import proofs.«143446_j21388937134412_2_alg».proof.Proof.KernelBlock

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the grid: the row-tiled windows sit at block row t, the weights and the bias
    row at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The weights' block at any point is the whole weights array. -/
theorem weights_blk (c : Dev nD) (t : Fin cfg3.N) : iblk3 V c 2 t = (V c main_arg9 : S128x128.Idx → EReal) := by
  obtain ⟨-, -, -, -, e20, e21, -⟩ := idx_facts t
  funext y
  show V c main_arg9 (((cfg3.win 2).blk t).view.emb y) = V c main_arg9 y
  refine congrArg _ (funext fun a => Fin.ext ?_)
  match a with
  | ⟨0, _⟩ => show win3_2.index t (0 : Fin 2) * 128 + 1 * (y 0).val = (y 0).val; rw [e20]; omega
  | ⟨1, _⟩ => show win3_2.index t (1 : Fin 2) * 128 + 1 * (y 1).val = (y 1).val; rw [e21]; omega

/-- The bias row's block at any point is the whole row. -/
theorem bias_blk (c : Dev nD) (t : Fin cfg3.N) : iblk3 V c 3 t = (V c main_v24 : S1x128.Idx → EReal) := by
  obtain ⟨-, -, -, -, -, -, e30, e31, -⟩ := idx_facts t
  funext y
  show V c main_v24 (((cfg3.win 3).blk t).view.emb y) = V c main_v24 y
  refine congrArg _ (funext fun a => Fin.ext ?_)
  match a with
  | ⟨0, _⟩ => show win3_3.index t (0 : Fin 2) * 1 + 1 * (y 0).val = (y 0).val; rw [e30]; omega
  | ⟨1, _⟩ => show win3_3.index t (1 : Fin 2) * 128 + 1 * (y 1).val = (y 1).val; rw [e31]; omega

/-- What point t writes back is block t of the rectified, rescaled dense part of the arrays as the region finds them. -/
theorem flushed_eq (c : Dev nD) (t : Fin cfg3.N) :
    (dat3 V c).flushed 5 t = ((cfg3.win 5).blk t).view.read (Elt Ideal)
      (Cert.Net.scale (Cert.Net.relu (Cert.Net.dense (V c main_v77) (V c main_v20) (V c main_arg9) (V c main_v24))) (V c main_v19)) := by
  show (cfg3.win 5).cut (grid3.coords t) ((dat3 V c).after 5 t) = _
  rw [after3_5]
  unfold out3_5
  rw [View.canon_unit_zero origin]
  simp only [View.ld_unit_zero (S := S10000x128) origin, View.ld_unit_zero (S := S10000x1) origin,
    View.ld_unit_zero (S := S128x128) origin, View.ld_unit_zero (S := S1x128) origin]
  obtain ⟨e00, e01, e10, e11, e20, e21, e30, e31, e40, e41, e50, e51⟩ := idx_facts t
  funext j
  show k3_pay1 (iblk3 V c 0 t) (iblk3 V c 1 t) (iblk3 V c 2 t) (iblk3 V c 3 t) (iblk3 V c 4 t) j
    = Cert.Net.scale (Cert.Net.relu (Cert.Net.dense (V c main_v77) (V c main_v20) (V c main_arg9) (V c main_v24))) (V c main_v19)
        (((cfg3.win 5).blk t).view.emb j)
  rw [Cert.KernelIdeal.Block.k3_pay1_eq]
  refine Cert.KernelIdeal.Block.relu_scaled_apply (iblk3 V c 0 t) (iblk3 V c 1 t) (iblk3 V c 2 t) (iblk3 V c 3 t)
    (iblk3 V c 4 t) (V c main_v77) (V c main_v20) (V c main_arg9) (V c main_v24)
    (((cfg3.win 0).blk t).view.emb) (((cfg3.win 5).blk t).view.emb) (((cfg3.win 1).blk t).view.emb) (t.val * 10000)
    (fun _ => rfl) (fun _ => rfl) (weights_blk V c t) (bias_blk V c t) ?_ ?_ ?_ ?_ ?_ (V c main_v19)
    (((cfg3.win 4).blk t).view.emb) (fun _ => rfl) ?_ j
  · intro y; show win3_0.index t (0 : Fin 2) * 10000 + 1 * (y 0).val = t.val * 10000 + (y 0).val; rw [e00]; omega
  · intro y; show win3_0.index t (1 : Fin 2) * 128 + 1 * (y 1).val = (y 1).val; rw [e01]; omega
  · intro y; show win3_1.index t (0 : Fin 2) * 10000 + 1 * (y 0).val = t.val * 10000 + (y 0).val; rw [e10]; omega
  · intro y; show win3_5.index t (0 : Fin 2) * 10000 + 1 * (y 0).val = t.val * 10000 + (y 0).val; rw [e50]; omega
  · intro y; show win3_5.index t (1 : Fin 2) * 128 + 1 * (y 1).val = (y 1).val; rw [e51]; omega
  · intro y; show win3_4.index t (0 : Fin 2) * 10000 + 1 * (y 0).val = t.val * 10000 + (y 0).val; rw [e40]; omega

/-- An index of the output array is in point t's block iff each coordinate is in the block's range on its axis. -/
theorem mem_blk (t : Fin cfg3.N) (i : S100000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v78).slice (win3_5.rect t)).set ↔ _
  rw [View.set_slice_whole, Rect.mem_set_unit]
  exact Iff.rfl

/-- Every index of the output array is in the block of the point its row falls in. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 10000 < grid3.N := by rw [N_3]; omega
  obtain ⟨-, -, -, -, -, -, -, -, -, -, e50, e51⟩ := idx_facts ⟨(i 0).val / 10000, ht⟩
  refine ⟨⟨(i 0).val / 10000, ht⟩, flush3_5 _, ?_⟩
  rw [mem_blk]
  intro a
  match a with
  | ⟨0, _⟩ =>
    show win3_5.index ⟨(i 0).val / 10000, ht⟩ (0 : Fin 2) * 10000 ≤ (i 0).val
      ∧ (i 0).val < win3_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win3_5.index ⟨(i 0).val / 10000, ht⟩ (1 : Fin 2) * 128 ≤ (i 1).val
      ∧ (i 1).val < win3_5.index ⟨(i 0).val / 10000, ht⟩ (1 : Fin 2) * 128 + 128
    rw [e51]; omega

/-- The output array after the region: the rectified, rescaled dense part of the arrays the region finds. -/
theorem out (c : Dev nD) :
    (dat3 V c).arrAt 5 cfg3.N
      = Cert.Net.scale (Cert.Net.relu (Cert.Net.dense (V c main_v77) (V c main_v20) (V c main_arg9) (V c main_v24))) (V c main_v19) :=
  (dat3 V c).arrAt_eq_of_cover 5 _ (fun t _ => flushed_eq V c t) cover

end Cert.KernelIdeal.Region3

end
-- ==== Proof.Region4.lean ====
/-
  What region 4 leaves in its output array, as one whole-array function of the arrays it finds.

  The region runs ten grid points; point t works on rows 10000 t, …, 10000 t + 9999 of the aggregate, of the in-degree
  column and of the output, and on the whole (padded) weights and bias row. Each point writes back its block of the
  dense part of the last layer — no rectifier, no rescaling; the ten blocks tile the output array, so the array ends
  holding that function.
-/
import proofs.«143446_j21388937134412_2_alg».proof.Proof.Gen.KernelIdeal.Frame
import proofs.«143446_j21388937134412_2_alg».proof.Proof.KernelBlock

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the grid: the row-tiled windows sit at block row t, the weights and the bias
    row at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The weights' block at any point is the whole weights array. -/
theorem weights_blk (c : Dev nD) (t : Fin cfg4.N) : iblk4 V c 2 t = (V c main_v27 : S128x128.Idx → EReal) := by
  obtain ⟨-, -, -, -, e20, e21, -, -, -, -⟩ := idx_facts t
  funext y
  show V c main_v27 (((cfg4.win 2).blk t).view.emb y) = V c main_v27 y
  refine congrArg _ (funext fun a => Fin.ext ?_)
  match a with
  | ⟨0, _⟩ => show win4_2.index t (0 : Fin 2) * 128 + 1 * (y 0).val = (y 0).val; rw [e20]; omega
  | ⟨1, _⟩ => show win4_2.index t (1 : Fin 2) * 128 + 1 * (y 1).val = (y 1).val; rw [e21]; omega

/-- The bias row's block at any point is the whole row. -/
theorem bias_blk (c : Dev nD) (t : Fin cfg4.N) : iblk4 V c 3 t = (V c main_v31 : S1x128.Idx → EReal) := by
  obtain ⟨-, -, -, -, -, -, e30, e31, -, -⟩ := idx_facts t
  funext y
  show V c main_v31 (((cfg4.win 3).blk t).view.emb y) = V c main_v31 y
  refine congrArg _ (funext fun a => Fin.ext ?_)
  match a with
  | ⟨0, _⟩ => show win4_3.index t (0 : Fin 2) * 1 + 1 * (y 0).val = (y 0).val; rw [e30]; omega
  | ⟨1, _⟩ => show win4_3.index t (1 : Fin 2) * 128 + 1 * (y 1).val = (y 1).val; rw [e31]; omega

/-- What point t writes back through window 4 is block t of the dense part of the arrays as the region finds them. -/
theorem flushed_eq4 (c : Dev nD) (t : Fin cfg4.N) :
    (dat4 V c).flushed 4 t = ((cfg4.win 4).blk t).view.read (Elt Ideal)
      (Cert.Net.dense (V c main_v88) (V c main_v20) (V c main_v27) (V c main_v31)) := by
  show (cfg4.win 4).cut (grid4.coords t) ((dat4 V c).after 4 t) = _
  rw [after4_4]
  unfold out4_4
  rw [View.canon_unit_zero origin]
  simp only [View.ld_unit_zero (S := S10000x128) origin, View.ld_unit_zero (S := S10000x1) origin,
    View.ld_unit_zero (S := S128x128) origin, View.ld_unit_zero (S := S1x128) origin]
  obtain ⟨e00, e01, e10, e11, e20, e21, e30, e31, e40, e41⟩ := idx_facts t
  funext j
  show k4_pay1 (iblk4 V c 0 t) (iblk4 V c 1 t) (iblk4 V c 2 t) (iblk4 V c 3 t) j
    = (Cert.Net.dense (V c main_v88) (V c main_v20) (V c main_v27) (V c main_v31))
        (((cfg4.win 4).blk t).view.emb j)
  refine Cert.KernelIdeal.Block.dense_apply (iblk4 V c 0 t) (iblk4 V c 1 t) (iblk4 V c 2 t) (iblk4 V c 3 t)
    (V c main_v88) (V c main_v20) (V c main_v27) (V c main_v31)
    (((cfg4.win 0).blk t).view.emb) (((cfg4.win 4).blk t).view.emb) (((cfg4.win 1).blk t).view.emb) (t.val * 10000)
    (fun _ => rfl) (fun _ => rfl) (weights_blk V c t) (bias_blk V c t) ?_ ?_ ?_ ?_ ?_ j
  · intro y; show win4_0.index t (0 : Fin 2) * 10000 + 1 * (y 0).val = t.val * 10000 + (y 0).val; rw [e00]; omega
  · intro y; show win4_0.index t (1 : Fin 2) * 128 + 1 * (y 1).val = (y 1).val; rw [e01]; omega
  · intro y; show win4_1.index t (0 : Fin 2) * 10000 + 1 * (y 0).val = t.val * 10000 + (y 0).val; rw [e10]; omega
  · intro y; show win4_4.index t (0 : Fin 2) * 10000 + 1 * (y 0).val = t.val * 10000 + (y 0).val; rw [e40]; omega
  · intro y; show win4_4.index t (1 : Fin 2) * 128 + 1 * (y 1).val = (y 1).val; rw [e41]; omega

/-- An index of the array of window 4 is in point t's block iff each coordinate is in the block's range on its axis. -/
theorem mem_blk4 (t : Fin cfg4.N) (i : S100000x128.Idx) :
    i ∈ ((cfg4.win 4).blk t).view.set ↔ ∀ a : Fin 2, win4_4.index t a * S10000x128.size a ≤ (i a).val
      ∧ (i a).val < win4_4.index t a * S10000x128.size a + S10000x128.size a := by
  show i ∈ ((View.whole main_v89).slice (win4_4.rect t)).set ↔ _
  rw [View.set_slice_whole, Rect.mem_set_unit]
  exact Iff.rfl

/-- Every index of that array is in the block of the point its row falls in. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have ht : (i 0).val / 10000 < grid4.N := by rw [N_4]; omega
  obtain ⟨e00, e01, e10, e11, e20, e21, e30, e31, e40, e41⟩ := idx_facts ⟨(i 0).val / 10000, ht⟩
  refine ⟨⟨(i 0).val / 10000, ht⟩, flush4_4 _, ?_⟩
  rw [mem_blk4]
  intro a
  match a with
  | ⟨0, _⟩ =>
    show win4_4.index ⟨(i 0).val / 10000, ht⟩ (0 : Fin 2) * 10000 ≤ (i 0).val
      ∧ (i 0).val < win4_4.index ⟨(i 0).val / 10000, ht⟩ (0 : Fin 2) * 10000 + 10000
    rw [e40]; show (i 0).val / 10000 * 10000 ≤ (i 0).val ∧ (i 0).val < (i 0).val / 10000 * 10000 + 10000; omega
  | ⟨1, _⟩ =>
    show win4_4.index ⟨(i 0).val / 10000, ht⟩ (1 : Fin 2) * 128 ≤ (i 1).val
      ∧ (i 1).val < win4_4.index ⟨(i 0).val / 10000, ht⟩ (1 : Fin 2) * 128 + 128
    rw [e41]; omega

/-- The array of window 4 after the region: the dense part of the arrays the region finds. -/
theorem out4 (c : Dev nD) :
    (dat4 V c).arrAt 4 cfg4.N
      = (Cert.Net.dense (V c main_v88) (V c main_v20) (V c main_v27) (V c main_v31)) :=
  (dat4 V c).arrAt_eq_of_cover 4 _ (fun t _ => flushed_eq4 V c t) cover4

end Cert.KernelIdeal.Region4

end
-- ==== Proof.KernelChain.lean ====
/-
  The idealized kernel computes the network.

  The contents of every buffer at every boundary between @main's segments are a fold from the launch memory. Walking the
  fold forward: before the first region the degree numbers, the layouts, the padding and the first aggregate are the
  network's functions of the arguments; each region leaves the rectified (and rescaled) dense part of its layer of the
  arrays it finds; each stretch between regions leaves the next aggregate; nothing else that is read later is written.
  So the array the third region returns is the network's embedding, and the first 64 columns of the last region's
  output are the network's output. The kernel computes the degree numbers once and the reference once per layer: the same
  term of the same edge lists, so nothing is to be proved about that.
-/
import proofs.«143446_j21388937134412_2_alg».proof.Proof.Gen.KernelIdeal.Frame
import proofs.«143446_j21388937134412_2_alg».proof.Proof.KernelHost
import proofs.«143446_j21388937134412_2_alg».proof.Proof.KernelPad
import proofs.«143446_j21388937134412_2_alg».proof.Proof.Region0
import proofs.«143446_j21388937134412_2_alg».proof.Proof.Region1
import proofs.«143446_j21388937134412_2_alg».proof.Proof.Region2
import proofs.«143446_j21388937134412_2_alg».proof.Proof.Region3
import proofs.«143446_j21388937134412_2_alg».proof.Proof.Region4

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## Before the last stretch that precedes the first region -/

/-- The out-degree numbers are computed once, before the first region. -/
theorem w4_so : W4 m ρ c (Proc.devRef .tc main_v12) = Cert.Net.invSqrt (m ((c.tc : Thread nD τ).loc main_arg1)) :=
  (Cert.KernelIdeal.Host.mid_so (W0 m ρ c)).trans (Cert.KernelIdeal.Host.invSqrtK_eq _)

/-- The in-degree numbers likewise. -/
theorem w4_si : W4 m ρ c (Proc.devRef .tc main_v18) = Cert.Net.invSqrt (m ((c.tc : Thread nD τ).loc main_arg2)) :=
  (Cert.KernelIdeal.Host.mid_si (W0 m ρ c)).trans (Cert.KernelIdeal.Host.invSqrtK_eq _)

theorem w4_arg0 : W4 m ρ c (Proc.devRef .tc main_arg0) = (m ((c.tc : Thread nD τ).loc main_arg0)) :=
  Cert.KernelIdeal.Host.mid_arg0 (W0 m ρ c)

theorem w4_arg1 : W4 m ρ c (Proc.devRef .tc main_arg1) = (m ((c.tc : Thread nD τ).loc main_arg1)) :=
  Cert.KernelIdeal.Host.mid_arg1 (W0 m ρ c)

theorem w4_arg2 : W4 m ρ c (Proc.devRef .tc main_arg2) = (m ((c.tc : Thread nD τ).loc main_arg2)) :=
  Cert.KernelIdeal.Host.mid_arg2 (W0 m ρ c)

theorem w4_arg3 : W4 m ρ c (Proc.devRef .tc main_arg3) = (m ((c.tc : Thread nD τ).loc main_arg3)) :=
  Cert.KernelIdeal.Host.mid_arg3 (W0 m ρ c)

theorem w4_arg4 : W4 m ρ c (Proc.devRef .tc main_arg4) = (m ((c.tc : Thread nD τ).loc main_arg4)) :=
  Cert.KernelIdeal.Host.mid_arg4 (W0 m ρ c)

theorem w4_arg5 : W4 m ρ c (Proc.devRef .tc main_arg5) = (m ((c.tc : Thread nD τ).loc main_arg5)) :=
  Cert.KernelIdeal.Host.mid_arg5 (W0 m ρ c)

theorem w4_arg6 : W4 m ρ c (Proc.devRef .tc main_arg6) = (m ((c.tc : Thread nD τ).loc main_arg6)) :=
  Cert.KernelIdeal.Host.mid_arg6 (W0 m ρ c)

theorem w4_arg7 : W4 m ρ c (Proc.devRef .tc main_arg7) = (m ((c.tc : Thread nD τ).loc main_arg7)) :=
  Cert.KernelIdeal.Host.mid_arg7 (W0 m ρ c)

theorem w4_arg8 : W4 m ρ c (Proc.devRef .tc main_arg8) = (m ((c.tc : Thread nD τ).loc main_arg8)) :=
  Cert.KernelIdeal.Host.mid_arg8 (W0 m ρ c)

theorem w4_arg9 : W4 m ρ c (Proc.devRef .tc main_arg9) = (m ((c.tc : Thread nD τ).loc main_arg9)) :=
  Cert.KernelIdeal.Host.mid_arg9 (W0 m ρ c)

theorem w4_arg10 : W4 m ρ c (Proc.devRef .tc main_arg10) = (m ((c.tc : Thread nD τ).loc main_arg10)) :=
  Cert.KernelIdeal.Host.mid_arg10 (W0 m ρ c)

theorem w4_arg11 : W4 m ρ c (Proc.devRef .tc main_arg11) = (m ((c.tc : Thread nD τ).loc main_arg11)) :=
  Cert.KernelIdeal.Host.mid_arg11 (W0 m ρ c)

theorem w4_arg12 : W4 m ρ c (Proc.devRef .tc main_arg12) = (m ((c.tc : Thread nD τ).loc main_arg12)) :=
  Cert.KernelIdeal.Host.mid_arg12 (W0 m ρ c)

/-! ## At the first region's entry -/

theorem w5_main_v44 : W5 m ρ c (Proc.devRef .tc main_v44) = (Cert.Net.fed (m ((c.tc : Thread nD τ).loc main_arg1)) (m ((c.tc : Thread nD τ).loc main_arg2)) (m ((c.tc : Thread nD τ).loc main_arg0))) := by
  refine (Cert.KernelIdeal.Host.first_fed (W4 m ρ c)).trans ?_
  rw [w4_arg1, w4_arg2, w4_arg0, w4_so]
  rfl

theorem w5_main_v20 : W5 m ρ c (Proc.devRef .tc main_v20) = (Cert.Net.col (Cert.Net.invSqrt (m ((c.tc : Thread nD τ).loc main_arg2)))) := by
  refine (Cert.KernelIdeal.Host.first_si (W4 m ρ c)).trans ?_
  rw [w4_si]

theorem w5_main_v19 : W5 m ρ c (Proc.devRef .tc main_v19) = (Cert.Net.col (Cert.Net.invSqrt (m ((c.tc : Thread nD τ).loc main_arg1)))) := by
  refine (Cert.KernelIdeal.Host.first_so (W4 m ρ c)).trans ?_
  rw [w4_so]

theorem w5_main_v21 : W5 m ρ c (Proc.devRef .tc main_v21) = (Cert.Net.row (m ((c.tc : Thread nD τ).loc main_arg4))) := by
  refine (Cert.KernelIdeal.Host.first_row4 (W4 m ρ c)).trans ?_
  rw [w4_arg4]

theorem w5_main_v22 : W5 m ρ c (Proc.devRef .tc main_v22) = (Cert.Net.row (m ((c.tc : Thread nD τ).loc main_arg6))) := by
  refine (Cert.KernelIdeal.Host.first_row6 (W4 m ρ c)).trans ?_
  rw [w4_arg6]

theorem w5_main_v23 : W5 m ρ c (Proc.devRef .tc main_v23) = (Cert.Net.row (m ((c.tc : Thread nD τ).loc main_arg8))) := by
  refine (Cert.KernelIdeal.Host.first_row8 (W4 m ρ c)).trans ?_
  rw [w4_arg8]

theorem w5_main_v24 : W5 m ρ c (Proc.devRef .tc main_v24) = (Cert.Net.row (m ((c.tc : Thread nD τ).loc main_arg10))) := by
  refine (Cert.KernelIdeal.Host.first_row10 (W4 m ρ c)).trans ?_
  rw [w4_arg10]

theorem w5_main_v27 : W5 m ρ c (Proc.devRef .tc main_v27) = (Cert.KernelIdeal.Host.padW (m ((c.tc : Thread nD τ).loc main_arg11))) := by
  refine (Cert.KernelIdeal.Host.first_padW (W4 m ρ c)).trans ?_
  rw [w4_arg11]

theorem w5_main_v31 : W5 m ρ c (Proc.devRef .tc main_v31) = (Cert.KernelIdeal.Host.padB (m ((c.tc : Thread nD τ).loc main_arg12))) := by
  refine (Cert.KernelIdeal.Host.first_padB (W4 m ρ c)).trans ?_
  rw [w4_arg12]

theorem w5_main_arg1 : W5 m ρ c (Proc.devRef .tc main_arg1) = (m ((c.tc : Thread nD τ).loc main_arg1)) :=
  (Cert.KernelIdeal.Host.first_arg1 (W4 m ρ c)).trans (w4_arg1 m ρ c)

theorem w5_main_arg2 : W5 m ρ c (Proc.devRef .tc main_arg2) = (m ((c.tc : Thread nD τ).loc main_arg2)) :=
  (Cert.KernelIdeal.Host.first_arg2 (W4 m ρ c)).trans (w4_arg2 m ρ c)

theorem w5_main_arg3 : W5 m ρ c (Proc.devRef .tc main_arg3) = (m ((c.tc : Thread nD τ).loc main_arg3)) :=
  (Cert.KernelIdeal.Host.first_arg3 (W4 m ρ c)).trans (w4_arg3 m ρ c)

theorem w5_main_arg5 : W5 m ρ c (Proc.devRef .tc main_arg5) = (m ((c.tc : Thread nD τ).loc main_arg5)) :=
  (Cert.KernelIdeal.Host.first_arg5 (W4 m ρ c)).trans (w4_arg5 m ρ c)

theorem w5_main_arg7 : W5 m ρ c (Proc.devRef .tc main_arg7) = (m ((c.tc : Thread nD τ).loc main_arg7)) :=
  (Cert.KernelIdeal.Host.first_arg7 (W4 m ρ c)).trans (w4_arg7 m ρ c)

theorem w5_main_arg9 : W5 m ρ c (Proc.devRef .tc main_arg9) = (m ((c.tc : Thread nD τ).loc main_arg9)) :=
  (Cert.KernelIdeal.Host.first_arg9 (W4 m ρ c)).trans (w4_arg9 m ρ c)

/-! ## Region 0 -/

theorem w6_main_v45 : W6 m ρ c (Proc.devRef .tc main_v45) = (Cert.Net.scale (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (Cert.Net.col (Cert.Net.invSqrt (m ((c.tc : Thread nD τ).loc main_arg1))))) := by
  refine (W6_arr m ρ c 5).trans ((Cert.KernelIdeal.Region0.out (V5 m ρ) c).trans ?_)
  show Cert.Net.scale (Cert.Net.relu (Cert.Net.dense (W5 m ρ c (Proc.devRef .tc main_v44)) (W5 m ρ c (Proc.devRef .tc main_v20)) (W5 m ρ c (Proc.devRef .tc main_arg3)) (W5 m ρ c (Proc.devRef .tc main_v21)))) (W5 m ρ c (Proc.devRef .tc main_v19)) = _
  rw [w5_main_v44, w5_main_v20, w5_main_arg3, w5_main_v21, w5_main_v19]
  rfl

theorem w6_main_v20 : W6 m ρ c (Proc.devRef .tc main_v20) = (Cert.Net.col (Cert.Net.invSqrt (m ((c.tc : Thread nD τ).loc main_arg2)))) :=
  ((W6_arr m ρ c 1).trans (((dat0 (V5 m ρ) c).arrAt_in 1 rfl _).trans (A_eq0 (V5 m ρ) c 1))).trans (w5_main_v20 m ρ c)

theorem w6_main_v19 : W6 m ρ c (Proc.devRef .tc main_v19) = (Cert.Net.col (Cert.Net.invSqrt (m ((c.tc : Thread nD τ).loc main_arg1)))) :=
  ((W6_arr m ρ c 4).trans (((dat0 (V5 m ρ) c).arrAt_in 4 rfl _).trans (A_eq0 (V5 m ρ) c 4))).trans (w5_main_v19 m ρ c)

theorem w6_main_v22 : W6 m ρ c (Proc.devRef .tc main_v22) = (Cert.Net.row (m ((c.tc : Thread nD τ).loc main_arg6))) :=
  (W6_of_ne m ρ c main_v22 (by decide)).trans (w5_main_v22 m ρ c)

theorem w6_main_v23 : W6 m ρ c (Proc.devRef .tc main_v23) = (Cert.Net.row (m ((c.tc : Thread nD τ).loc main_arg8))) :=
  (W6_of_ne m ρ c main_v23 (by decide)).trans (w5_main_v23 m ρ c)

theorem w6_main_v24 : W6 m ρ c (Proc.devRef .tc main_v24) = (Cert.Net.row (m ((c.tc : Thread nD τ).loc main_arg10))) :=
  (W6_of_ne m ρ c main_v24 (by decide)).trans (w5_main_v24 m ρ c)

theorem w6_main_v27 : W6 m ρ c (Proc.devRef .tc main_v27) = (Cert.KernelIdeal.Host.padW (m ((c.tc : Thread nD τ).loc main_arg11))) :=
  (W6_of_ne m ρ c main_v27 (by decide)).trans (w5_main_v27 m ρ c)

theorem w6_main_v31 : W6 m ρ c (Proc.devRef .tc main_v31) = (Cert.KernelIdeal.Host.padB (m ((c.tc : Thread nD τ).loc main_arg12))) :=
  (W6_of_ne m ρ c main_v31 (by decide)).trans (w5_main_v31 m ρ c)

theorem w6_main_arg1 : W6 m ρ c (Proc.devRef .tc main_arg1) = (m ((c.tc : Thread nD τ).loc main_arg1)) :=
  (W6_of_ne m ρ c main_arg1 (by decide)).trans (w5_main_arg1 m ρ c)

theorem w6_main_arg2 : W6 m ρ c (Proc.devRef .tc main_arg2) = (m ((c.tc : Thread nD τ).loc main_arg2)) :=
  (W6_of_ne m ρ c main_arg2 (by decide)).trans (w5_main_arg2 m ρ c)

theorem w6_main_arg5 : W6 m ρ c (Proc.devRef .tc main_arg5) = (m ((c.tc : Thread nD τ).loc main_arg5)) :=
  (W6_of_ne m ρ c main_arg5 (by decide)).trans (w5_main_arg5 m ρ c)

theorem w6_main_arg7 : W6 m ρ c (Proc.devRef .tc main_arg7) = (m ((c.tc : Thread nD τ).loc main_arg7)) :=
  (W6_of_ne m ρ c main_arg7 (by decide)).trans (w5_main_arg7 m ρ c)

theorem w6_main_arg9 : W6 m ρ c (Proc.devRef .tc main_arg9) = (m ((c.tc : Thread nD τ).loc main_arg9)) :=
  (W6_of_ne m ρ c main_arg9 (by decide)).trans (w5_main_arg9 m ρ c)

/-! ## The stretch before region 1 -/

theorem w7_main_v55 : W7 m ρ c (Proc.devRef .tc main_v55) = (Cert.Net.fed (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4)))) := by
  refine (Cert.KernelIdeal.Host.agg1 (W6 m ρ c)).trans ?_
  rw [w6_main_arg1, w6_main_arg2, w6_main_v45]
  rfl

theorem w7_main_v20 : W7 m ρ c (Proc.devRef .tc main_v20) = (Cert.Net.col (Cert.Net.invSqrt (m ((c.tc : Thread nD τ).loc main_arg2)))) :=
  (Cert.KernelIdeal.Host.keep1 (W6 m ρ c) main_v20 (by decide)).trans (w6_main_v20 m ρ c)

theorem w7_main_v19 : W7 m ρ c (Proc.devRef .tc main_v19) = (Cert.Net.col (Cert.Net.invSqrt (m ((c.tc : Thread nD τ).loc main_arg1)))) :=
  (Cert.KernelIdeal.Host.keep1 (W6 m ρ c) main_v19 (by decide)).trans (w6_main_v19 m ρ c)

theorem w7_main_v22 : W7 m ρ c (Proc.devRef .tc main_v22) = (Cert.Net.row (m ((c.tc : Thread nD τ).loc main_arg6))) :=
  (Cert.KernelIdeal.Host.keep1 (W6 m ρ c) main_v22 (by decide)).trans (w6_main_v22 m ρ c)

theorem w7_main_v23 : W7 m ρ c (Proc.devRef .tc main_v23) = (Cert.Net.row (m ((c.tc : Thread nD τ).loc main_arg8))) :=
  (Cert.KernelIdeal.Host.keep1 (W6 m ρ c) main_v23 (by decide)).trans (w6_main_v23 m ρ c)

theorem w7_main_v24 : W7 m ρ c (Proc.devRef .tc main_v24) = (Cert.Net.row (m ((c.tc : Thread nD τ).loc main_arg10))) :=
  (Cert.KernelIdeal.Host.keep1 (W6 m ρ c) main_v24 (by decide)).trans (w6_main_v24 m ρ c)

theorem w7_main_v27 : W7 m ρ c (Proc.devRef .tc main_v27) = (Cert.KernelIdeal.Host.padW (m ((c.tc : Thread nD τ).loc main_arg11))) :=
  (Cert.KernelIdeal.Host.keep1 (W6 m ρ c) main_v27 (by decide)).trans (w6_main_v27 m ρ c)

theorem w7_main_v31 : W7 m ρ c (Proc.devRef .tc main_v31) = (Cert.KernelIdeal.Host.padB (m ((c.tc : Thread nD τ).loc main_arg12))) :=
  (Cert.KernelIdeal.Host.keep1 (W6 m ρ c) main_v31 (by decide)).trans (w6_main_v31 m ρ c)

theorem w7_main_arg1 : W7 m ρ c (Proc.devRef .tc main_arg1) = (m ((c.tc : Thread nD τ).loc main_arg1)) :=
  (Cert.KernelIdeal.Host.keep1 (W6 m ρ c) main_arg1 (by decide)).trans (w6_main_arg1 m ρ c)

theorem w7_main_arg2 : W7 m ρ c (Proc.devRef .tc main_arg2) = (m ((c.tc : Thread nD τ).loc main_arg2)) :=
  (Cert.KernelIdeal.Host.keep1 (W6 m ρ c) main_arg2 (by decide)).trans (w6_main_arg2 m ρ c)

theorem w7_main_arg5 : W7 m ρ c (Proc.devRef .tc main_arg5) = (m ((c.tc : Thread nD τ).loc main_arg5)) :=
  (Cert.KernelIdeal.Host.keep1 (W6 m ρ c) main_arg5 (by decide)).trans (w6_main_arg5 m ρ c)

theorem w7_main_arg7 : W7 m ρ c (Proc.devRef .tc main_arg7) = (m ((c.tc : Thread nD τ).loc main_arg7)) :=
  (Cert.KernelIdeal.Host.keep1 (W6 m ρ c) main_arg7 (by decide)).trans (w6_main_arg7 m ρ c)

theorem w7_main_arg9 : W7 m ρ c (Proc.devRef .tc main_arg9) = (m ((c.tc : Thread nD τ).loc main_arg9)) :=
  (Cert.KernelIdeal.Host.keep1 (W6 m ρ c) main_arg9 (by decide)).trans (w6_main_arg9 m ρ c)

/-! ## Region 1 -/

theorem w8_main_v56 : W8 m ρ c (Proc.devRef .tc main_v56) = (Cert.Net.scale (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (Cert.Net.col (Cert.Net.invSqrt (m ((c.tc : Thread nD τ).loc main_arg1))))) := by
  refine (W8_arr m ρ c 5).trans ((Cert.KernelIdeal.Region1.out (V7 m ρ) c).trans ?_)
  show Cert.Net.scale (Cert.Net.relu (Cert.Net.dense (W7 m ρ c (Proc.devRef .tc main_v55)) (W7 m ρ c (Proc.devRef .tc main_v20)) (W7 m ρ c (Proc.devRef .tc main_arg5)) (W7 m ρ c (Proc.devRef .tc main_v22)))) (W7 m ρ c (Proc.devRef .tc main_v19)) = _
  rw [w7_main_v55, w7_main_v20, w7_main_arg5, w7_main_v22, w7_main_v19]
  rfl

theorem w8_main_v20 : W8 m ρ c (Proc.devRef .tc main_v20) = (Cert.Net.col (Cert.Net.invSqrt (m ((c.tc : Thread nD τ).loc main_arg2)))) :=
  ((W8_arr m ρ c 1).trans (((dat1 (V7 m ρ) c).arrAt_in 1 rfl _).trans (A_eq1 (V7 m ρ) c 1))).trans (w7_main_v20 m ρ c)

theorem w8_main_v19 : W8 m ρ c (Proc.devRef .tc main_v19) = (Cert.Net.col (Cert.Net.invSqrt (m ((c.tc : Thread nD τ).loc main_arg1)))) :=
  ((W8_arr m ρ c 4).trans (((dat1 (V7 m ρ) c).arrAt_in 4 rfl _).trans (A_eq1 (V7 m ρ) c 4))).trans (w7_main_v19 m ρ c)

theorem w8_main_v23 : W8 m ρ c (Proc.devRef .tc main_v23) = (Cert.Net.row (m ((c.tc : Thread nD τ).loc main_arg8))) :=
  (W8_of_ne m ρ c main_v23 (by decide)).trans (w7_main_v23 m ρ c)

theorem w8_main_v24 : W8 m ρ c (Proc.devRef .tc main_v24) = (Cert.Net.row (m ((c.tc : Thread nD τ).loc main_arg10))) :=
  (W8_of_ne m ρ c main_v24 (by decide)).trans (w7_main_v24 m ρ c)

theorem w8_main_v27 : W8 m ρ c (Proc.devRef .tc main_v27) = (Cert.KernelIdeal.Host.padW (m ((c.tc : Thread nD τ).loc main_arg11))) :=
  (W8_of_ne m ρ c main_v27 (by decide)).trans (w7_main_v27 m ρ c)

theorem w8_main_v31 : W8 m ρ c (Proc.devRef .tc main_v31) = (Cert.KernelIdeal.Host.padB (m ((c.tc : Thread nD τ).loc main_arg12))) :=
  (W8_of_ne m ρ c main_v31 (by decide)).trans (w7_main_v31 m ρ c)

theorem w8_main_arg1 : W8 m ρ c (Proc.devRef .tc main_arg1) = (m ((c.tc : Thread nD τ).loc main_arg1)) :=
  (W8_of_ne m ρ c main_arg1 (by decide)).trans (w7_main_arg1 m ρ c)

theorem w8_main_arg2 : W8 m ρ c (Proc.devRef .tc main_arg2) = (m ((c.tc : Thread nD τ).loc main_arg2)) :=
  (W8_of_ne m ρ c main_arg2 (by decide)).trans (w7_main_arg2 m ρ c)

theorem w8_main_arg7 : W8 m ρ c (Proc.devRef .tc main_arg7) = (m ((c.tc : Thread nD τ).loc main_arg7)) :=
  (W8_of_ne m ρ c main_arg7 (by decide)).trans (w7_main_arg7 m ρ c)

theorem w8_main_arg9 : W8 m ρ c (Proc.devRef .tc main_arg9) = (m ((c.tc : Thread nD τ).loc main_arg9)) :=
  (W8_of_ne m ρ c main_arg9 (by decide)).trans (w7_main_arg9 m ρ c)

/-! ## The stretch before region 2 -/

theorem w9_main_v66 : W9 m ρ c (Proc.devRef .tc main_v66) = (Cert.Net.fed (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6)))) := by
  refine (Cert.KernelIdeal.Host.agg2 (W8 m ρ c)).trans ?_
  rw [w8_main_arg1, w8_main_arg2, w8_main_v56]
  rfl

theorem w9_main_v20 : W9 m ρ c (Proc.devRef .tc main_v20) = (Cert.Net.col (Cert.Net.invSqrt (m ((c.tc : Thread nD τ).loc main_arg2)))) :=
  (Cert.KernelIdeal.Host.keep2 (W8 m ρ c) main_v20 (by decide)).trans (w8_main_v20 m ρ c)

theorem w9_main_v19 : W9 m ρ c (Proc.devRef .tc main_v19) = (Cert.Net.col (Cert.Net.invSqrt (m ((c.tc : Thread nD τ).loc main_arg1)))) :=
  (Cert.KernelIdeal.Host.keep2 (W8 m ρ c) main_v19 (by decide)).trans (w8_main_v19 m ρ c)

theorem w9_main_v23 : W9 m ρ c (Proc.devRef .tc main_v23) = (Cert.Net.row (m ((c.tc : Thread nD τ).loc main_arg8))) :=
  (Cert.KernelIdeal.Host.keep2 (W8 m ρ c) main_v23 (by decide)).trans (w8_main_v23 m ρ c)

theorem w9_main_v24 : W9 m ρ c (Proc.devRef .tc main_v24) = (Cert.Net.row (m ((c.tc : Thread nD τ).loc main_arg10))) :=
  (Cert.KernelIdeal.Host.keep2 (W8 m ρ c) main_v24 (by decide)).trans (w8_main_v24 m ρ c)

theorem w9_main_v27 : W9 m ρ c (Proc.devRef .tc main_v27) = (Cert.KernelIdeal.Host.padW (m ((c.tc : Thread nD τ).loc main_arg11))) :=
  (Cert.KernelIdeal.Host.keep2 (W8 m ρ c) main_v27 (by decide)).trans (w8_main_v27 m ρ c)

theorem w9_main_v31 : W9 m ρ c (Proc.devRef .tc main_v31) = (Cert.KernelIdeal.Host.padB (m ((c.tc : Thread nD τ).loc main_arg12))) :=
  (Cert.KernelIdeal.Host.keep2 (W8 m ρ c) main_v31 (by decide)).trans (w8_main_v31 m ρ c)

theorem w9_main_arg1 : W9 m ρ c (Proc.devRef .tc main_arg1) = (m ((c.tc : Thread nD τ).loc main_arg1)) :=
  (Cert.KernelIdeal.Host.keep2 (W8 m ρ c) main_arg1 (by decide)).trans (w8_main_arg1 m ρ c)

theorem w9_main_arg2 : W9 m ρ c (Proc.devRef .tc main_arg2) = (m ((c.tc : Thread nD τ).loc main_arg2)) :=
  (Cert.KernelIdeal.Host.keep2 (W8 m ρ c) main_arg2 (by decide)).trans (w8_main_arg2 m ρ c)

theorem w9_main_arg7 : W9 m ρ c (Proc.devRef .tc main_arg7) = (m ((c.tc : Thread nD τ).loc main_arg7)) :=
  (Cert.KernelIdeal.Host.keep2 (W8 m ρ c) main_arg7 (by decide)).trans (w8_main_arg7 m ρ c)

theorem w9_main_arg9 : W9 m ρ c (Proc.devRef .tc main_arg9) = (m ((c.tc : Thread nD τ).loc main_arg9)) :=
  (Cert.KernelIdeal.Host.keep2 (W8 m ρ c) main_arg9 (by decide)).trans (w8_main_arg9 m ρ c)

/-! ## Region 2 -/

theorem w10_main_v67_0 : W10 m ρ c (Proc.devRef .tc main_v67_0) = (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) := by
  refine (W10_arr m ρ c 5).trans ((Cert.KernelIdeal.Region2.out5 (V9 m ρ) c).trans ?_)
  show Cert.Net.relu (Cert.Net.dense (W9 m ρ c (Proc.devRef .tc main_v66)) (W9 m ρ c (Proc.devRef .tc main_v20)) (W9 m ρ c (Proc.devRef .tc main_arg7)) (W9 m ρ c (Proc.devRef .tc main_v23))) = _
  rw [w9_main_v66, w9_main_v20, w9_main_arg7, w9_main_v23]
  rfl

theorem w10_main_v67_1 : W10 m ρ c (Proc.devRef .tc main_v67_1) = (Cert.Net.scale (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) (Cert.Net.col (Cert.Net.invSqrt (m ((c.tc : Thread nD τ).loc main_arg1))))) := by
  refine (W10_arr m ρ c 6).trans ((Cert.KernelIdeal.Region2.out6 (V9 m ρ) c).trans ?_)
  show Cert.Net.scale (Cert.Net.relu (Cert.Net.dense (W9 m ρ c (Proc.devRef .tc main_v66)) (W9 m ρ c (Proc.devRef .tc main_v20)) (W9 m ρ c (Proc.devRef .tc main_arg7)) (W9 m ρ c (Proc.devRef .tc main_v23)))) (W9 m ρ c (Proc.devRef .tc main_v19)) = _
  rw [w9_main_v66, w9_main_v20, w9_main_arg7, w9_main_v23, w9_main_v19]
  rfl

theorem w10_main_v20 : W10 m ρ c (Proc.devRef .tc main_v20) = (Cert.Net.col (Cert.Net.invSqrt (m ((c.tc : Thread nD τ).loc main_arg2)))) :=
  ((W10_arr m ρ c 1).trans (((dat2 (V9 m ρ) c).arrAt_in 1 rfl _).trans (A_eq2 (V9 m ρ) c 1))).trans (w9_main_v20 m ρ c)

theorem w10_main_v19 : W10 m ρ c (Proc.devRef .tc main_v19) = (Cert.Net.col (Cert.Net.invSqrt (m ((c.tc : Thread nD τ).loc main_arg1)))) :=
  ((W10_arr m ρ c 4).trans (((dat2 (V9 m ρ) c).arrAt_in 4 rfl _).trans (A_eq2 (V9 m ρ) c 4))).trans (w9_main_v19 m ρ c)

theorem w10_main_v24 : W10 m ρ c (Proc.devRef .tc main_v24) = (Cert.Net.row (m ((c.tc : Thread nD τ).loc main_arg10))) :=
  (W10_of_ne m ρ c main_v24 (by decide)).trans (w9_main_v24 m ρ c)

theorem w10_main_v27 : W10 m ρ c (Proc.devRef .tc main_v27) = (Cert.KernelIdeal.Host.padW (m ((c.tc : Thread nD τ).loc main_arg11))) :=
  (W10_of_ne m ρ c main_v27 (by decide)).trans (w9_main_v27 m ρ c)

theorem w10_main_v31 : W10 m ρ c (Proc.devRef .tc main_v31) = (Cert.KernelIdeal.Host.padB (m ((c.tc : Thread nD τ).loc main_arg12))) :=
  (W10_of_ne m ρ c main_v31 (by decide)).trans (w9_main_v31 m ρ c)

theorem w10_main_arg1 : W10 m ρ c (Proc.devRef .tc main_arg1) = (m ((c.tc : Thread nD τ).loc main_arg1)) :=
  (W10_of_ne m ρ c main_arg1 (by decide)).trans (w9_main_arg1 m ρ c)

theorem w10_main_arg2 : W10 m ρ c (Proc.devRef .tc main_arg2) = (m ((c.tc : Thread nD τ).loc main_arg2)) :=
  (W10_of_ne m ρ c main_arg2 (by decide)).trans (w9_main_arg2 m ρ c)

theorem w10_main_arg9 : W10 m ρ c (Proc.devRef .tc main_arg9) = (m ((c.tc : Thread nD τ).loc main_arg9)) :=
  (W10_of_ne m ρ c main_arg9 (by decide)).trans (w9_main_arg9 m ρ c)

/-! ## The stretch before region 3 -/

theorem w11_main_v77 : W11 m ρ c (Proc.devRef .tc main_v77) = (Cert.Net.fed (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8)))) := by
  refine (Cert.KernelIdeal.Host.agg3 (W10 m ρ c)).trans ?_
  rw [w10_main_arg1, w10_main_arg2, w10_main_v67_1]
  rfl

theorem w11_main_v67_0 : W11 m ρ c (Proc.devRef .tc main_v67_0) = (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) :=
  (Cert.KernelIdeal.Host.keep3 (W10 m ρ c) main_v67_0 (by decide)).trans (w10_main_v67_0 m ρ c)

theorem w11_main_v20 : W11 m ρ c (Proc.devRef .tc main_v20) = (Cert.Net.col (Cert.Net.invSqrt (m ((c.tc : Thread nD τ).loc main_arg2)))) :=
  (Cert.KernelIdeal.Host.keep3 (W10 m ρ c) main_v20 (by decide)).trans (w10_main_v20 m ρ c)

theorem w11_main_v19 : W11 m ρ c (Proc.devRef .tc main_v19) = (Cert.Net.col (Cert.Net.invSqrt (m ((c.tc : Thread nD τ).loc main_arg1)))) :=
  (Cert.KernelIdeal.Host.keep3 (W10 m ρ c) main_v19 (by decide)).trans (w10_main_v19 m ρ c)

theorem w11_main_v24 : W11 m ρ c (Proc.devRef .tc main_v24) = (Cert.Net.row (m ((c.tc : Thread nD τ).loc main_arg10))) :=
  (Cert.KernelIdeal.Host.keep3 (W10 m ρ c) main_v24 (by decide)).trans (w10_main_v24 m ρ c)

theorem w11_main_v27 : W11 m ρ c (Proc.devRef .tc main_v27) = (Cert.KernelIdeal.Host.padW (m ((c.tc : Thread nD τ).loc main_arg11))) :=
  (Cert.KernelIdeal.Host.keep3 (W10 m ρ c) main_v27 (by decide)).trans (w10_main_v27 m ρ c)

theorem w11_main_v31 : W11 m ρ c (Proc.devRef .tc main_v31) = (Cert.KernelIdeal.Host.padB (m ((c.tc : Thread nD τ).loc main_arg12))) :=
  (Cert.KernelIdeal.Host.keep3 (W10 m ρ c) main_v31 (by decide)).trans (w10_main_v31 m ρ c)

theorem w11_main_arg1 : W11 m ρ c (Proc.devRef .tc main_arg1) = (m ((c.tc : Thread nD τ).loc main_arg1)) :=
  (Cert.KernelIdeal.Host.keep3 (W10 m ρ c) main_arg1 (by decide)).trans (w10_main_arg1 m ρ c)

theorem w11_main_arg2 : W11 m ρ c (Proc.devRef .tc main_arg2) = (m ((c.tc : Thread nD τ).loc main_arg2)) :=
  (Cert.KernelIdeal.Host.keep3 (W10 m ρ c) main_arg2 (by decide)).trans (w10_main_arg2 m ρ c)

theorem w11_main_arg9 : W11 m ρ c (Proc.devRef .tc main_arg9) = (m ((c.tc : Thread nD τ).loc main_arg9)) :=
  (Cert.KernelIdeal.Host.keep3 (W10 m ρ c) main_arg9 (by decide)).trans (w10_main_arg9 m ρ c)

/-! ## Region 3 -/

theorem w12_main_v78 : W12 m ρ c (Proc.devRef .tc main_v78) = (Cert.Net.scale (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10))) (Cert.Net.col (Cert.Net.invSqrt (m ((c.tc : Thread nD τ).loc main_arg1))))) := by
  refine (W12_arr m ρ c 5).trans ((Cert.KernelIdeal.Region3.out (V11 m ρ) c).trans ?_)
  show Cert.Net.scale (Cert.Net.relu (Cert.Net.dense (W11 m ρ c (Proc.devRef .tc main_v77)) (W11 m ρ c (Proc.devRef .tc main_v20)) (W11 m ρ c (Proc.devRef .tc main_arg9)) (W11 m ρ c (Proc.devRef .tc main_v24)))) (W11 m ρ c (Proc.devRef .tc main_v19)) = _
  rw [w11_main_v77, w11_main_v20, w11_main_arg9, w11_main_v24, w11_main_v19]
  rfl

theorem w12_main_v67_0 : W12 m ρ c (Proc.devRef .tc main_v67_0) = (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) :=
  (W12_of_ne m ρ c main_v67_0 (by decide)).trans (w11_main_v67_0 m ρ c)

theorem w12_main_v20 : W12 m ρ c (Proc.devRef .tc main_v20) = (Cert.Net.col (Cert.Net.invSqrt (m ((c.tc : Thread nD τ).loc main_arg2)))) :=
  ((W12_arr m ρ c 1).trans (((dat3 (V11 m ρ) c).arrAt_in 1 rfl _).trans (A_eq3 (V11 m ρ) c 1))).trans (w11_main_v20 m ρ c)

theorem w12_main_v27 : W12 m ρ c (Proc.devRef .tc main_v27) = (Cert.KernelIdeal.Host.padW (m ((c.tc : Thread nD τ).loc main_arg11))) :=
  (W12_of_ne m ρ c main_v27 (by decide)).trans (w11_main_v27 m ρ c)

theorem w12_main_v31 : W12 m ρ c (Proc.devRef .tc main_v31) = (Cert.KernelIdeal.Host.padB (m ((c.tc : Thread nD τ).loc main_arg12))) :=
  (W12_of_ne m ρ c main_v31 (by decide)).trans (w11_main_v31 m ρ c)

theorem w12_main_arg1 : W12 m ρ c (Proc.devRef .tc main_arg1) = (m ((c.tc : Thread nD τ).loc main_arg1)) :=
  (W12_of_ne m ρ c main_arg1 (by decide)).trans (w11_main_arg1 m ρ c)

theorem w12_main_arg2 : W12 m ρ c (Proc.devRef .tc main_arg2) = (m ((c.tc : Thread nD τ).loc main_arg2)) :=
  (W12_of_ne m ρ c main_arg2 (by decide)).trans (w11_main_arg2 m ρ c)

/-! ## The stretch before region 4 -/

theorem w13_main_v88 : W13 m ρ c (Proc.devRef .tc main_v88) = (Cert.Net.fed (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)))) := by
  refine (Cert.KernelIdeal.Host.agg4 (W12 m ρ c)).trans ?_
  rw [w12_main_arg1, w12_main_arg2, w12_main_v78]
  rfl

theorem w13_main_v67_0 : W13 m ρ c (Proc.devRef .tc main_v67_0) = (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) :=
  (Cert.KernelIdeal.Host.keep4 (W12 m ρ c) main_v67_0 (by decide)).trans (w12_main_v67_0 m ρ c)

theorem w13_main_v20 : W13 m ρ c (Proc.devRef .tc main_v20) = (Cert.Net.col (Cert.Net.invSqrt (m ((c.tc : Thread nD τ).loc main_arg2)))) :=
  (Cert.KernelIdeal.Host.keep4 (W12 m ρ c) main_v20 (by decide)).trans (w12_main_v20 m ρ c)

theorem w13_main_v27 : W13 m ρ c (Proc.devRef .tc main_v27) = (Cert.KernelIdeal.Host.padW (m ((c.tc : Thread nD τ).loc main_arg11))) :=
  (Cert.KernelIdeal.Host.keep4 (W12 m ρ c) main_v27 (by decide)).trans (w12_main_v27 m ρ c)

theorem w13_main_v31 : W13 m ρ c (Proc.devRef .tc main_v31) = (Cert.KernelIdeal.Host.padB (m ((c.tc : Thread nD τ).loc main_arg12))) :=
  (Cert.KernelIdeal.Host.keep4 (W12 m ρ c) main_v31 (by decide)).trans (w12_main_v31 m ρ c)

/-! ## Region 4 -/

theorem w14_main_v89 : W14 m ρ c (Proc.devRef .tc main_v89) = (Cert.Net.dense (Cert.Net.fed (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)))) (Cert.Net.col (Cert.Net.invSqrt (m ((c.tc : Thread nD τ).loc main_arg2)))) (Cert.KernelIdeal.Host.padW (m ((c.tc : Thread nD τ).loc main_arg11))) (Cert.KernelIdeal.Host.padB (m ((c.tc : Thread nD τ).loc main_arg12)))) := by
  refine (W14_arr m ρ c 4).trans ((Cert.KernelIdeal.Region4.out4 (V13 m ρ) c).trans ?_)
  show Cert.Net.dense (W13 m ρ c (Proc.devRef .tc main_v88)) (W13 m ρ c (Proc.devRef .tc main_v20)) (W13 m ρ c (Proc.devRef .tc main_v27)) (W13 m ρ c (Proc.devRef .tc main_v31)) = _
  rw [w13_main_v88, w13_main_v20, w13_main_v27, w13_main_v31]

theorem w14_main_v67_0 : W14 m ρ c (Proc.devRef .tc main_v67_0) = (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (Cert.Net.layer (m ((c.tc : Thread nD τ).loc main_arg1)) (m ((c.tc : Thread nD τ).loc main_arg2)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) :=
  (W14_of_ne m ρ c main_v67_0 (by decide)).trans (w13_main_v67_0 m ρ c)

/-! ## The results -/

/-- The second result, the third layer's output, is the network's embedding of the arguments. -/
theorem embedding_eq : W15 m ρ c (Proc.devRef .tc main_v67_0)
    = Cert.Net.embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Cert.KernelIdeal.Host.sliced_keep (W14 m ρ c)).trans (w14_main_v67_0 m ρ c)

/-- The first result, the first 64 columns of the padded last layer, is the network's output of the arguments. -/
theorem output_eq : W15 m ρ c (Proc.devRef .tc main_v90)
    = Cert.Net.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (Cert.KernelIdeal.Host.sliced (W14 m ρ c)).trans ?_
  rw [w14_main_v89]
  exact Cert.KernelIdeal.Host.sliced_dense _ _ _ _

end Cert.KernelIdeal.Chain

end
-- ==== Proof.RefIsNet.lean ====
/-
  The reference program computes the network.

  The reference's run ends with each result at one composed term of host operations of the argument arrays: five times
  over, the two degree counts and their inverse square roots, the scaling of the rows, the gather and the accumulation, the
  second scaling, the product with the weights, the bias, and (but for the last layer) the rectifier. That term is, piece by
  piece, the network's whole-array function of the arguments: nothing is rearranged, so the two are one term once the
  network's definitions are opened.
-/
import proofs.«143446_j21388937134412_2_alg».proof.Proof.RefRunPatched
import proofs.«143446_j21388937134412_2_alg».proof.Proof.Net

set_option maxRecDepth 16384

noncomputable section

namespace Cert.ReferenceIdeal.RefValue

open Idealize.ShloMosaic Idealize.ShloMosaic.TcCoe Idealize.SL.Sem Cert.ReferenceIdeal

/-- The reference's second result, the third layer's output, is the network's embedding of the arguments. -/
theorem embedding_eq (m : (ℓ : Loc nD τ sig) → Buf (Elt Ideal) ℓ) (c : Dev nD) :
    Cert.ReferenceIdeal.ValueP.res_main_v119 (F := Ideal) m c
      = Cert.Net.embedding (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v119; rfl

/-- The reference's first result is the network's output of the arguments. -/
theorem output_eq (m : (ℓ : Loc nD τ sig) → Buf (Elt Ideal) ℓ) (c : Dev nD) :
    Cert.ReferenceIdeal.ValueP.res_main_v198 (F := Ideal) m c
      = Cert.Net.output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  unfold Cert.ReferenceIdeal.ValueP.res_main_v198; rfl

end Cert.ReferenceIdeal.RefValue

end
-- ==== Proof.lean ====
/-
  The certificate of a five-layer graph convolution network on a graph of 100000 nodes and 1600000 edges: the tiled program
  against the whole-array reference, over the extended reals.

  Both programs compute, layer by layer, max((si ⊙ A (so ⊙ H)) · W + b, 0), where so and si are the inverse square roots
  of the out- and in-degrees (0 at degree zero) and A gathers the rows of its argument along the edges' sources and sums
  them into the rows of the edges' destinations; the last layer has 64 columns and no rectifier; the results are the last
  layer's output, the third layer's output and the input. The reference computes every layer whole, the degree numbers
  anew in each. The tiled program computes the degree numbers once; it leaves the gather and the accumulation to the host
  and computes the dense part of each layer — the scaling by si, the product, the bias, the rectifier, and the scaling by
  so that the NEXT layer's gather needs — in a region of ten grid points, 10000 rows each; for the last layer it pads
  weights and bias to 128 columns and slices the result back to 64.
  At the extended reals the two are the same function of the arguments with no algebraic law in between: a block of rows of
  a product depends on those rows only; a matrix product into a zero accumulator is the host's product; the padded
  columns are never read. No sum is reordered and nothing is assumed finite, so the precondition is not opened.
  The frames of the two tiled programs are the generated ones; the reference's frame is its run with the results dropped;
  the idealization rewrote nothing.
-/
import proofs.«143446_j21388937134412_2_alg».proof.Defs
import proofs.«143446_j21388937134412_2_alg».proof.Proof.Gen.Kernel
import proofs.«143446_j21388937134412_2_alg».proof.Proof.Gen.Kernel.Skeleton
import proofs.«143446_j21388937134412_2_alg».proof.Proof.Gen.Kernel.Launch
import proofs.«143446_j21388937134412_2_alg».proof.Proof.Gen.Kernel.Points
import proofs.«143446_j21388937134412_2_alg».proof.Proof.Gen.Kernel.Frame
import proofs.«143446_j21388937134412_2_alg».proof.Proof.Gen.KernelIdeal
import proofs.«143446_j21388937134412_2_alg».proof.Proof.Gen.KernelIdeal.Skeleton
import proofs.«143446_j21388937134412_2_alg».proof.Proof.Gen.KernelIdeal.Launch
import proofs.«143446_j21388937134412_2_alg».proof.Proof.Gen.KernelIdeal.Points
import proofs.«143446_j21388937134412_2_alg».proof.Proof.Gen.KernelIdeal.Frame
import proofs.«143446_j21388937134412_2_alg».proof.Proof.Gen.ReferenceIdeal
import proofs.«143446_j21388937134412_2_alg».proof.Proof.Gen.Pre_finite_inputs
import proofs.«143446_j21388937134412_2_alg».proof.Proof.KernelRun
import proofs.«143446_j21388937134412_2_alg».proof.Proof.KernelChain
import proofs.«143446_j21388937134412_2_alg».proof.Proof.RefRunPatched
import proofs.«143446_j21388937134412_2_alg».proof.Proof.RefIsNet
import Idealize.ShloMosaic.Adequacy
import Idealize.ShloMosaic.Init

set_option maxRecDepth 16384

noncomputable section

namespace Cert.Proof

open Idealize.ShloMosaic Idealize.ShloMosaic.TcCoe Idealize.SL.Sem

/-- The tiled program as printed runs, nothing faulting, and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2)
    (Cert.ReferenceIdeal.ValueP.run (F := Ideal) m ρ)

/-- The idealization rewrote no operation. -/
theorem preserves : Cert.preserves_Kernel_KernelIdeal := trivial

/-- From memories that agree on the arguments both programs end with the network's output, the network's embedding and the
    input: the tiled program by the walk through its segments, the reference by its run's term. -/
theorem algebraic : Cert.algebraic_KernelIdeal_ReferenceIdeal := by
  intro m ρ m' ρ' _ hagree
  refine ⟨fun c => Cert.Net.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Net.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Chain.output_eq m ρ c),
        (h c).2.1.trans (Cert.KernelIdeal.Chain.embedding_eq m ρ c), (h c).2.2.1, (h c).2.2⟩)
      (Cert.KernelIdeal.RunValue.run (F := Ideal) m ρ)
  · refine (θ_run Cert.ReferenceIdeal.defs _ _).mono (fun r h c => ?_)
      (Cert.ReferenceIdeal.ValueP.run (F := Ideal) m' ρ')
    obtain ⟨e0, e1, e2, e3, e4, e5, e6, e7, e8, e9, e10, e11, e12⟩ := hagree c
    refine ⟨(h c).1.trans ((Cert.ReferenceIdeal.RefValue.output_eq m' c).trans ?_),
      (h c).2.1.trans ((Cert.ReferenceIdeal.RefValue.embedding_eq m' c).trans ?_),
      (h c).2.2.1.trans e0, (h c).2.2.2⟩
    · rw [e0, e1, e2, e3, e4, e5, e6, e7, e8, e9, e10, e11, e12]
    · rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
